-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v34)) (v1 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_v23) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v24) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S500000x128 : Shape := ⟨2, ![500000, 128]⟩
abbrev S500000 : Shape := ⟨1, ![500000]⟩
abbrev S384x128 : Shape := ⟨2, ![384, 128]⟩
abbrev S128 : Shape := ⟨1, ![128]⟩
abbrev S128x128 : Shape := ⟨2, ![128, 128]⟩
abbrev S256x128 : Shape := ⟨2, ![256, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S500000x128 : S_.BroadcastsInDim S500000x128 (![] : Fin 0 → Fin S500000x128.rank)
  reducesTo_S500000x128_S_d0_1 : S500000x128.ReducesTo [0, 1] S_
  bcast_S_S384x128 : S_.BroadcastsInDim S384x128 (![] : Fin 0 → Fin S384x128.rank)
  reducesTo_S384x128_S_d0_1 : S384x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S256x128 : S_.BroadcastsInDim S256x128 (![] : Fin 0 → Fin S256x128.rank)
  reducesTo_S256x128_S_d0_1 : S256x128.ReducesTo [0, 1] S_

variable [Facts]

def fn_part2 {F : FTy → Type} [FloatOps F] (main_arg9 : FVec F S128 .f32) (main_arg10 : FVec F S128x128 .f32) (main_arg11 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg6 : FVec F S128x128 .f32) (main_arg7 : FVec F S128 .f32) (main_arg8 : FVec F S256x128 .f32) (main_arg9 : FVec F S128 .f32) (main_arg10 : FVec F S128x128 .f32) (main_arg11 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x128 .f32 := Host.absf main_arg8
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg9 main_arg10 main_arg11 main_v33

def fn {F : FTy → Type} [FloatOps F] (main_arg0 : FVec F S100000x128 .f32) (main_arg1 : FVec F S500000x128 .f32) (main_arg2 : IVec S500000 32) (main_arg3 : IVec S500000 32) (main_arg4 : FVec F S384x128 .f32) (main_arg5 : FVec F S128 .f32) (main_arg6 : FVec F S128x128 .f32) (main_arg7 : FVec F S128 .f32) (main_arg8 : FVec F S256x128 .f32) (main_arg9 : FVec F S128 .f32) (main_arg10 : FVec F S128x128 .f32) (main_arg11 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S500000x128 .f32 := Host.absf main_arg1
  let main_cst_0 : FVec F S_ .f32 := constant S_ .f32 0x7F800000#32
  let main_v5 : FVec F S500000x128 .f32 := broadcastInDim S500000x128 ![] bcast_S_S500000x128 main_cst_0
  let main_v6 : IVec S500000x128 1 := cmpf .olt main_v4 main_v5
  let main_c_1 : IVec S_ 1 := constantI S_ 1 1#1
  let main_v7 : IVec S_ 1 := (fun x v => Host.reduce IntOp.andi x v reducesTo_S500000x128_S_d0_1 h_S_) main_v6 main_c_1
  let main_v8 : IVec S_ 1 := andi main_v3 main_v7
  let main_v9 : FVec F S384x128 .f32 := Host.absf main_arg4
  let main_cst_2 : FVec F S_ .f32 := constant S_ .f32 0x7F800000#32
  let main_v10 : FVec F S384x128 .f32 := broadcastInDim S384x128 ![] bcast_S_S384x128 main_cst_2
  let main_v11 : IVec S384x128 1 := cmpf .olt main_v9 main_v10
  let main_c_3 : IVec S_ 1 := constantI S_ 1 1#1
  let main_v12 : IVec S_ 1 := (fun x v => Host.reduce IntOp.andi x v reducesTo_S384x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_v13 main_v16
-- ==== Kernel.lean ====
abbrev S100000x128 : Shape := ⟨2, ![100000, 128]⟩
abbrev S500000x128 : Shape := ⟨2, ![500000, 128]⟩
abbrev S500000 : Shape := ⟨1, ![500000]⟩
abbrev S384x128 : Shape := ⟨2, ![384, 128]⟩
abbrev S128 : Shape := ⟨1, ![128]⟩
abbrev S128x128 : Shape := ⟨2, ![128, 128]⟩
abbrev S256x128 : Shape := ⟨2, ![256, 128]⟩
abbrev S_ : Shape := ⟨0, ![]⟩
abbrev S500000x1 : Shape := ⟨2, ![500000, 1]⟩
abbrev S1x128 : Shape := ⟨2, ![1, 128]⟩
abbrev S5000x128 : Shape := ⟨2, ![5000, 128]⟩

abbrev nBuf : Space → Nat
  | .hbm => 52
  | .vmem => 25
  | .smem => 0
  | _ => 0

abbrev bufTy : (tb : Table) → Fin (tcTables nBuf tb) → BufTy
  | .hbm, ⟨0, _⟩ => ⟨S100000x128, .f32⟩
  | .hbm, ⟨1, _⟩ => ⟨S500000x128, .f32⟩
  | .hbm, ⟨2, _⟩ => ⟨S500000, .i32⟩
  | .hbm, ⟨3, _⟩ => ⟨S500000, .i32⟩
  | .hbm, ⟨4, _⟩ => ⟨S384x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S256x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S_, .i32⟩
  | .hbm, ⟨13, _⟩ => ⟨S500000, .i32⟩
  | .hbm, ⟨14, _⟩ => ⟨S500000, .i1⟩
  | .hbm, ⟨15, _⟩ => ⟨S_, .i32⟩
  | .hbm, ⟨16, _⟩ => ⟨S500000, .i32⟩
  | .hbm, ⟨17, _⟩ => ⟨S500000, .i32⟩
  | .hbm, ⟨18, _⟩ => ⟨S500000, .i32⟩
  | .hbm, ⟨19, _⟩ => ⟨S500000x1, .i32⟩
  | .hbm, ⟨20, _⟩ => ⟨S500000x128, .f32⟩
  | .hbm, ⟨21, _⟩ => ⟨S_, .i32⟩
  | .hbm, ⟨22, _⟩ => ⟨S500000, .i32⟩
  | .hbm, ⟨23, _⟩ => ⟨S500000, .i1⟩
  | .hbm, ⟨24, _⟩ => ⟨S_, .i32⟩
  | .hbm, ⟨25, _⟩ => ⟨S500000, .i32⟩
  | .hbm, ⟨26, _⟩ => ⟨S500000, .i32⟩
  | .hbm, ⟨27, _⟩ => ⟨S500000, .i32⟩
  | .hbm, ⟨28, _⟩ => ⟨S500000x1, .i32⟩
  | .hbm, ⟨29, _⟩ => ⟨S500000x128, .f32⟩
  | .hbm, ⟨30, _⟩ => ⟨S128x128, .f32⟩
  | .hbm, ⟨31, _⟩ => ⟨S128x128, .bf16⟩
  | .hbm, ⟨32, _⟩ => ⟨S128x128, .f32⟩
  | .hbm, ⟨33, _⟩ => ⟨S128x128, .bf16⟩
  | .hbm, ⟨34, _⟩ => ⟨S128x128, .f32⟩
  | .hbm, ⟨35, _⟩ => ⟨S128x128, .bf16⟩
  | .hbm, ⟨36, _⟩ => ⟨S128x128, .bf16⟩
  | .hbm, ⟨37, _⟩ => ⟨S1x128, .f32⟩
  | .hbm, ⟨38, _⟩ => ⟨S1x128, .f32⟩
  | .hbm, ⟨39, _⟩ => ⟨S500000x128, .f32⟩
  | .hbm, ⟨40, _⟩ => ⟨S_, .f32⟩
  | .hbm, ⟨41, _⟩ => ⟨S100000x128, .f32⟩
  | .hbm, ⟨42, _⟩ => ⟨S500000x1, .i32⟩
  | .hbm, ⟨43, _⟩ => ⟨S100000x128, .f32⟩
  | .hbm, ⟨44, _⟩ => ⟨S128x128, .f32⟩
  | .hbm, ⟨45, _⟩ => ⟨S128x128, .bf16⟩
  | .hbm, ⟨46, _⟩ => ⟨S128x128, .f32⟩
  | .hbm, ⟨47, _⟩ => ⟨S128x128, .bf16⟩
  | .hbm, ⟨48, _⟩ => ⟨S128x128, .bf16⟩
  | .hbm, ⟨49, _⟩ => ⟨S1x128, .f32⟩
  | .hbm, ⟨50, _⟩ => ⟨S1x128, .f32⟩
  | .hbm, ⟨51, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S128x128, .bf16⟩
  | .local _ .vmem, ⟨7, _⟩ => ⟨S128x128, .bf16⟩
  | .local _ .vmem, ⟨8, _⟩ => ⟨S128x128, .bf16⟩
  | .local _ .vmem, ⟨9, _⟩ => ⟨S1x128, .f32⟩
  | .local _ .vmem, ⟨10, _⟩ => ⟨S128x128, .bf16⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S128x128, .bf16⟩
  | .local _ .vmem, ⟨19, _⟩ => ⟨S128x128, .bf16⟩
  | .local _ .vmem, ⟨20, _⟩ => ⟨S1x128, .f32⟩
  | .local _ .vmem, ⟨21, _⟩ => ⟨S128x128, .bf16⟩
  | .local _ .vmem, ⟨22, _⟩ => ⟨S1x128, .f32⟩
  | .local _ .vmem, ⟨23, _⟩ => ⟨S5000x128, .f32⟩
  | .local _ .vmem, ⟨24, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c_1 : Ref sig .tc := ⟨.hbm, 21, rfl⟩
abbrev main_v7 : Ref sig .tc := ⟨.hbm, 22, rfl⟩
abbrev main_v8 : Ref sig .tc := ⟨.hbm, 23, rfl⟩
abbrev main_c_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg7_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem7_1 : DmaSem sig := 24

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S5000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  slices_S384x128_S128x128_0_0 : S384x128.Slices ![0, 0] S128x128
  bitsLt_bf16_f32 : FTy.bits .bf16 < FTy.bits .f32
  slices_S384x128_S128x128_128_0 : S384x128.Slices ![128, 0] S128x128
  slices_S384x128_S128x128_256_0 : S384x128.Slices ![256, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S100000x128 : S_.BroadcastsInDim S100000x128 (![] : Fin 0 → Fin S100000x128.rank)
  slices_S256x128_S128x128_0_0 : S256x128.Slices ![0, 0] S128x128
  slices_S256x128_S128x128_128_0 : S256x128.Slices ![128, 0] S128x128
  gather_S100000x128_S500000x1_S500000x128_1_0_n_n_0_1_1128_wf : GatherDims.WF S100000x128 S500000x1 S500000x128 [1] [0] [] [0] [] 1 ![1, 128]
  dot_S5000x128_S128x128_S5000x128_1_0_0_1_n_n_wf : DotDims.WF S5000x128 S128x128 S5000x128 [1] [0] [0] [1] [] []
  scatter_S100000x128_S500000x1_S500000x128_1_0_0_1_wf : ScatterDims.WF S100000x128 S500000x1 S500000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S500000x128.size a
  hwx0_0 : ∀ i : grid0.Coords, EltTy.bits .f32 = 32 ∨ (Rect.block (s := S500000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S500000x128.size a
  hwx0_1 : ∀ i : grid0.Coords, EltTy.bits .f32 = 32 ∨ (Rect.block (s := S500000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S500000x128.size a
  hwx0_2 : ∀ i : grid0.Coords, EltTy.bits .f32 = 32 ∨ (Rect.block (s := S500000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .bf16 = 32 ∨ (Rect.block (s := S128x128) S128x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S5000x128.size a ≤ S500000x128.size a
  hwx0_9 : ∀ i : grid0.Coords, EltTy.bits .f32 = 32 ∨ (Rect.block (s := S500000x128) S5000x128.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .bf16 = 32 ∨ (Rect.block (s := S128x128) S128x128.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S100000x128.size a
  hwx1_7 : ∀ i : grid1.Coords, EltTy.bits .f32 = 32 ∨ (Rect.block (s := S100000x128) S5000x128.size (cc1_transform_7 i) (hinb1_7 i)).WholeWords (EltTy.packing .f32)

variable [Facts₀]

def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf

abbrev win0_0 : Pipeline.Window sig grid0 :=
  Pipeline.Window.ofSpec (Memref.whole main_arg1) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v21) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v20) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v22) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v23) S5000x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v30) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v32) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v31) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v33) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v34) S5000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000x128 : Shape := ⟨2, ![100000, 128]⟩
abbrev S500000x128 : Shape := ⟨2, ![500000, 128]⟩
abbrev S500000 : Shape := ⟨1, ![500000]⟩
abbrev S384x128 : Shape := ⟨2, ![384, 128]⟩
abbrev S128 : Shape := ⟨1, ![128]⟩
abbrev S128x128 : Shape := ⟨2, ![128, 128]⟩
abbrev S256x128 : Shape := ⟨2, ![256, 128]⟩
abbrev S_ : Shape := ⟨0, ![]⟩
abbrev S500000x1 : Shape := ⟨2, ![500000, 1]⟩
abbrev S500000x384 : Shape := ⟨2, ![500000, 384]⟩
abbrev S1x128 : Shape := ⟨2, ![1, 128]⟩
abbrev S100000x256 : Shape := ⟨2, ![100000, 256]⟩

abbrev nBuf : Space → Nat
  | .hbm => 60
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S500000x128, .f32⟩
  | .hbm, ⟨2, _⟩ => ⟨S500000, .i32⟩
  | .hbm, ⟨3, _⟩ => ⟨S500000, .i32⟩
  | .hbm, ⟨4, _⟩ => ⟨S384x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S256x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S_, .i32⟩
  | .hbm, ⟨13, _⟩ => ⟨S500000, .i32⟩
  | .hbm, ⟨14, _⟩ => ⟨S500000, .i1⟩
  | .hbm, ⟨15, _⟩ => ⟨S_, .i32⟩
  | .hbm, ⟨16, _⟩ => ⟨S500000, .i32⟩
  | .hbm, ⟨17, _⟩ => ⟨S500000, .i32⟩
  | .hbm, ⟨18, _⟩ => ⟨S500000, .i32⟩
  | .hbm, ⟨19, _⟩ => ⟨S500000x1, .i32⟩
  | .hbm, ⟨20, _⟩ => ⟨S500000x128, .f32⟩
  | .hbm, ⟨21, _⟩ => ⟨S_, .i32⟩
  | .hbm, ⟨22, _⟩ => ⟨S500000, .i32⟩
  | .hbm, ⟨23, _⟩ => ⟨S500000, .i1⟩
  | .hbm, ⟨24, _⟩ => ⟨S_, .i32⟩
  | .hbm, ⟨25, _⟩ => ⟨S500000, .i32⟩
  | .hbm, ⟨26, _⟩ => ⟨S500000, .i32⟩
  | .hbm, ⟨27, _⟩ => ⟨S500000, .i32⟩
  | .hbm, ⟨28, _⟩ => ⟨S500000x1, .i32⟩
  | .hbm, ⟨29, _⟩ => ⟨S500000x128, .f32⟩
  | .hbm, ⟨30, _⟩ => ⟨S500000x384, .f32⟩
  | .hbm, ⟨31, _⟩ => ⟨S500000x128, .f32⟩
  | .hbm, ⟨32, _⟩ => ⟨S1x128, .f32⟩
  | .hbm, ⟨33, _⟩ => ⟨S500000x128, .f32⟩
  | .hbm, ⟨34, _⟩ => ⟨S500000x128, .f32⟩
  | .hbm, ⟨35, _⟩ => ⟨S_, .f32⟩
  | .hbm, ⟨36, _⟩ => ⟨S500000x128, .f32⟩
  | .hbm, ⟨37, _⟩ => ⟨S500000x128, .f32⟩
  | .hbm, ⟨38, _⟩ => ⟨S500000x128, .f32⟩
  | .hbm, ⟨39, _⟩ => ⟨S1x128, .f32⟩
  | .hbm, ⟨40, _⟩ => ⟨S500000x128, .f32⟩
  | .hbm, ⟨41, _⟩ => ⟨S500000x128, .f32⟩
  | .hbm, ⟨42, _⟩ => ⟨S500000x128, .f32⟩
  | .hbm, ⟨43, _⟩ => ⟨S_, .f32⟩
  | .hbm, ⟨44, _⟩ => ⟨S100000x128, .f32⟩
  | .hbm, ⟨45, _⟩ => ⟨S500000x1, .i32⟩
  | .hbm, ⟨46, _⟩ => ⟨S100000x128, .f32⟩
  | .hbm, ⟨47, _⟩ => ⟨S100000x256, .f32⟩
  | .hbm, ⟨48, _⟩ => ⟨S100000x128, .f32⟩
  | .hbm, ⟨49, _⟩ => ⟨S1x128, .f32⟩
  | .hbm, ⟨50, _⟩ => ⟨S100000x128, .f32⟩
  | .hbm, ⟨51, _⟩ => ⟨S100000x128, .f32⟩
  | .hbm, ⟨52, _⟩ => ⟨S_, .f32⟩
  | .hbm, ⟨53, _⟩ => ⟨S100000x128, .f32⟩
  | .hbm, ⟨54, _⟩ => ⟨S100000x128, .f32⟩
  | .hbm, ⟨55, _⟩ => ⟨S100000x128, .f32⟩
  | .hbm, ⟨56, _⟩ => ⟨S1x128, .f32⟩
  | .hbm, ⟨57, _⟩ => ⟨S100000x128, .f32⟩
  | .hbm, ⟨58, _⟩ => ⟨S100000x128, .f32⟩
  | .hbm, ⟨59, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c_1 : Ref sig .tc := ⟨.hbm, 21, rfl⟩
abbrev main_v7 : Ref sig .tc := ⟨.hbm, 22, rfl⟩
abbrev main_v8 : Ref sig .tc := ⟨.hbm, 23, rfl⟩
abbrev main_c_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_call0_cst : Ref sig .tc := ⟨.hbm, 35, rfl⟩
abbrev main_call0_v0 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_call1_cst : Ref sig .tc := ⟨.hbm, 52, rfl⟩
abbrev main_call1_v0 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩

abbrev nD : Nat := 1
abbrev τ : Topo := Topo.v7x

variable {F : FTy → Type} [FloatOps F]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  concatenates_S500000x128_S500000x128_S500000x128_S500000x384_d1 : Shape.Concatenates [S500000x128, S500000x128, S500000x128] S500000x384 1
  bcast_S128_S1x128_1 : S128.BroadcastsInDim S1x128 (![1] : Fin 1 → Fin S1x128.rank)
  bcast_S1x128_S500000x128_0_1 : S1x128.BroadcastsInDim S500000x128 (![0, 1] : Fin 2 → Fin S500000x128.rank)
  bcast_S_S500000x128 : S_.BroadcastsInDim S500000x128 (![] : Fin 0 → Fin S500000x128.rank)
  bcast_S_S100000x128 : S_.BroadcastsInDim S100000x128 (![] : Fin 0 → Fin S100000x128.rank)
  concatenates_S100000x128_S100000x128_S100000x256_d1 : Shape.Concatenates [S100000x128, S100000x128] S100000x256 1
  bcast_S1x128_S100000x128_0_1 : S1x128.BroadcastsInDim S100000x128 (![0, 1] : Fin 2 → Fin S100000x128.rank)
  gather_S100000x128_S500000x1_S500000x128_1_0_n_n_0_1_1128_wf : GatherDims.WF S100000x128 S500000x1 S500000x128 [1] [0] [] [0] [] 1 ![1, 128]
  dot_S500000x384_S384x128_S500000x128_1_0_0_1_n_n_wf : DotDims.WF S500000x384 S384x128 S500000x128 [1] [0] [0] [1] [] []
  dot_S500000x128_S128x128_S500000x128_1_0_0_1_n_n_wf : DotDims.WF S500000x128 S128x128 S500000x128 [1] [0] [0] [1] [] []
  scatter_S100000x128_S500000x1_S500000x128_1_0_0_1_wf : ScatterDims.WF S100000x128 S500000x1 S500000x128 [1] [0] [0] 1
  dot_S100000x256_S256x128_S100000x128_1_0_0_1_n_n_wf : DotDims.WF S100000x256 S256x128 S100000x128 [1] [0] [0] [1] [] []
  dot_S100000x128_S128x128_S100000x128_1_0_0_1_n_n_wf : DotDims.WF S100000x128 S128x128 S100000x128 [1] [0] [0] [1] [] []

variable [Facts₀]

def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def dot_S500000x384_S384x128_S500000x128_1_0_0_1_n_n : DotDims S500000x384 S384x128 S500000x128 where
  lhsContracting := [1]
  rhsContracting := [0]
  lhsNonContracting := [0]
  rhsNonContracting := [1]
  lhsBatch := []
  rhsBatch := []
  wf := dot_S500000x384_S384x128_S500000x128_1_0_0_1_n_n_wf
def dot_S500000x128_S128x128_S500000x128_1_0_0_1_n_n : DotDims S500000x128 S128x128 S500000x128 where
  lhsContracting := [1]
  rhsContracting := [0]
  lhsNonContracting := [0]
  rhsNonContracting := [1]
  lhsBatch := []
  rhsBatch := []
  wf := dot_S500000x128_S128x128_S500000x128_1_0_0_1_n_n_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Spec.lean ====
/-
  One message-passing step of a graph network on the extended reals, row by row.

  A row of 128 entries meets a 128×128 weight matrix as a plain finite sum over the contracted coordinate. The
  edge step's hidden layer adds three such products (the edge's own row, its sender's row, its receiver's row, each
  against its own block of 128 rows of the first weight matrix), adds the bias and takes the maximum with zero; the
  node step's hidden layer adds two (the node's row and its aggregated messages). Either step then multiplies the
  hidden row by the second weight matrix, adds the second bias, and adds the result to the row it started from.

  Joining the inputs along the contracted axis and multiplying by the whole first weight matrix is the same number:
  a sum over 384 (or 256) coordinates is the sum of its stretches of 128, which needs only that addition on the
  extended reals is commutative and associative.
-/
import Idealize.ShloMosaic.PureOps.Ideal
import Idealize.ShloMosaic.Lib.ValueIdx

noncomputable section

namespace Cert.Mlp

open Idealize.ShloMosaic Idealize.ShloMosaic.ValueIdx

/-- A row against a weight matrix: entry k is Σ_a x(a)·w(a,k). -/
def rowDot (x : Fin 128 → EReal) (w : Fin 128 → Fin 128 → EReal) (k : Fin 128) : EReal :=
  ∑ a : Fin 128, x a * w a k

/-- The edge step's hidden row: max(((e·we + s·ws) + r·wr) + b, 0). -/
def hidden3 (e s r : Fin 128 → EReal) (we ws wr : Fin 128 → Fin 128 → EReal) (b : Fin 128 → EReal) (k : Fin 128) : EReal :=
  max (((rowDot e we k + rowDot s ws k) + rowDot r wr k) + b k) 0

/-- The node step's hidden row: max((n·wn + a·wa) + b, 0). -/
def hidden2 (n a : Fin 128 → EReal) (wn wa : Fin 128 → Fin 128 → EReal) (b : Fin 128 → EReal) (k : Fin 128) : EReal :=
  max ((rowDot n wn k + rowDot a wa k) + b k) 0

/-- The second layer added to the row the step started from: x + (h·w + b). -/
def residual (x h : Fin 128 → EReal) (w : Fin 128 → Fin 128 → EReal) (b : Fin 128 → EReal) (q : Fin 128) : EReal :=
  x q + (rowDot h w q + b q)

variable {N : Nat}

/-- Row i of an N×128 array. -/
def row (X : (⟨2, ![N, 128]⟩ : Shape).Idx → EReal) (i : Fin N) : Fin 128 → EReal := fun a => X (ix2 i a)

/-- A 128×128 array as a function of its two coordinates. -/
def mat (W : (⟨2, ![128, 128]⟩ : Shape).Idx → EReal) : Fin 128 → Fin 128 → EReal := fun a k => W (ix2 a k)

/-- A 1×128 array as a function of its column. -/
def bias (B : (⟨2, ![1, 128]⟩ : Shape).Idx → EReal) : Fin 128 → EReal := fun k => B (ix2 0 k)

/-- The edge step on N rows: the weight matrices and biases as the kernel is handed them (three 128×128 blocks of
    the first layer, 1×128 biases). -/
def edgeStep (E S R : (⟨2, ![N, 128]⟩ : Shape).Idx → EReal) (We Ws Wr : (⟨2, ![128, 128]⟩ : Shape).Idx → EReal)
    (B1 : (⟨2, ![1, 128]⟩ : Shape).Idx → EReal) (W2 : (⟨2, ![128, 128]⟩ : Shape).Idx → EReal)
    (B2 : (⟨2, ![1, 128]⟩ : Shape).Idx → EReal) : (⟨2, ![N, 128]⟩ : Shape).Idx → EReal :=
  fun j => residual (row E (j 0)) (hidden3 (row E (j 0)) (row S (j 0)) (row R (j 0)) (mat We) (mat Ws) (mat Wr) (bias B1))
    (mat W2) (bias B2) (j 1)

/-- The node step on N rows. -/
def nodeStep (X A : (⟨2, ![N, 128]⟩ : Shape).Idx → EReal) (Wn Wa : (⟨2, ![128, 128]⟩ : Shape).Idx → EReal)
    (B1 : (⟨2, ![1, 128]⟩ : Shape).Idx → EReal) (W2 : (⟨2, ![128, 128]⟩ : Shape).Idx → EReal)
    (B2 : (⟨2, ![1, 128]⟩ : Shape).Idx → EReal) : (⟨2, ![N, 128]⟩ : Shape).Idx → EReal :=
  fun j => residual (row X (j 0)) (hidden2 (row X (j 0)) (row A (j 0)) (mat Wn) (mat Wa) (bias B1)) (mat W2) (bias B2) (j 1)

/-- The 128 rows of a T×128 matrix that start at row o. -/
def rowsFrom {T : Nat} (o : Nat) (h : o + 128 ≤ T) (W : (⟨2, ![T, 128]⟩ : Shape).Idx → EReal) :
    (⟨2, ![128, 128]⟩ : Shape).Idx → EReal :=
  fun j => W (ix2 ⟨o + (j 0).val, by have := idx2_lt0 j; omega⟩ (j 1))

/-- A vector of 128 entries as a 1×128 array. -/
def asRow (b : (⟨1, ![128]⟩ : Shape).Idx → EReal) : (⟨2, ![1, 128]⟩ : Shape).Idx → EReal := fun j => b (ix1 (j 1))

theorem edgeStep_apply (E S R : (⟨2, ![N, 128]⟩ : Shape).Idx → EReal) (We Ws Wr : (⟨2, ![128, 128]⟩ : Shape).Idx → EReal)
    (B1 : (⟨2, ![1, 128]⟩ : Shape).Idx → EReal) (W2 : (⟨2, ![128, 128]⟩ : Shape).Idx → EReal)
    (B2 : (⟨2, ![1, 128]⟩ : Shape).Idx → EReal) (p : Fin N) (q : Fin 128) :
    edgeStep E S R We Ws Wr B1 W2 B2 (ix2 p q)
      = residual (row E p) (hidden3 (row E p) (row S p) (row R p) (mat We) (mat Ws) (mat Wr) (bias B1)) (mat W2) (bias B2) q := rfl

theorem nodeStep_apply (X A : (⟨2, ![N, 128]⟩ : Shape).Idx → EReal) (Wn Wa : (⟨2, ![128, 128]⟩ : Shape).Idx → EReal)
    (B1 : (⟨2, ![1, 128]⟩ : Shape).Idx → EReal) (W2 : (⟨2, ![128, 128]⟩ : Shape).Idx → EReal)
    (B2 : (⟨2, ![1, 128]⟩ : Shape).Idx → EReal) (p : Fin N) (q : Fin 128) :
    nodeStep X A Wn Wa B1 W2 B2 (ix2 p q)
      = residual (row X p) (hidden2 (row X p) (row A p) (mat Wn) (mat Wa) (bias B1)) (mat W2) (bias B2) q := rfl

/-- A row joined from three rows of 128 against a 384×128 matrix is the sum of the three products against the
    matrix's three blocks of 128 rows. -/
theorem sum_384 (f : Fin 384 → EReal) :
    ∑ k : Fin 384, f k
      = ((∑ a : Fin 128, f ⟨a.val, by have := a.isLt; omega⟩) + ∑ a : Fin 128, f ⟨128 + a.val, by have := a.isLt; omega⟩)
        + ∑ a : Fin 128, f ⟨256 + a.val, by have := a.isLt; omega⟩ := by
  have h1 := Fin.sum_univ_add (a := 256) (b := 128) (fun i : Fin (256 + 128) => f ⟨i.val, i.isLt⟩)
  have h2 := Fin.sum_univ_add (a := 128) (b := 128) (fun i : Fin (128 + 128) => f ⟨i.val, by have := i.isLt; omega⟩)
  refine (h1.trans ?_)
  refine congrArg₂ (· + ·) (h2.trans ?_) ?_
  · rfl
  · rfl

/-- The same for two rows of 128 against a 256×128 matrix. -/
theorem sum_256 (f : Fin 256 → EReal) :
    ∑ k : Fin 256, f k
      = (∑ a : Fin 128, f ⟨a.val, by have := a.isLt; omega⟩) + ∑ a : Fin 128, f ⟨128 + a.val, by have := a.isLt; omega⟩ :=
  (Fin.sum_univ_add (a := 128) (b := 128) (fun i : Fin (128 + 128) => f ⟨i.val, i.isLt⟩)).trans rfl

/-! ## A block of rows of a step is the step of the blocks

The step treats rows independently, so rows off … off + n of its result are the step applied to rows off … off + n of
its row-wise inputs, the weights and biases being the same. -/

theorem edgeStep_rows {N n : Nat} (E S R : (⟨2, ![N, 128]⟩ : Shape).Idx → EReal) (e s r : (⟨2, ![n, 128]⟩ : Shape).Idx → EReal)
    (We Ws Wr : (⟨2, ![128, 128]⟩ : Shape).Idx → EReal) (B1 : (⟨2, ![1, 128]⟩ : Shape).Idx → EReal)
    (W2 : (⟨2, ![128, 128]⟩ : Shape).Idx → EReal) (B2 : (⟨2, ![1, 128]⟩ : Shape).Idx → EReal)
    (we ws wr : (⟨2, ![128, 128]⟩ : Shape).Idx → EReal) (b1 : (⟨2, ![1, 128]⟩ : Shape).Idx → EReal)
    (w2 : (⟨2, ![128, 128]⟩ : Shape).Idx → EReal) (b2 : (⟨2, ![1, 128]⟩ : Shape).Idx → EReal)
    (p : Fin n) (P : Fin N)
    (he : ∀ a : Fin 128, e (ix2 p a) = E (ix2 P a)) (hs : ∀ a : Fin 128, s (ix2 p a) = S (ix2 P a))
    (hr : ∀ a : Fin 128, r (ix2 p a) = R (ix2 P a))
    (hwe : we = We) (hws : ws = Ws) (hwr : wr = Wr) (hb1 : b1 = B1) (hw2 : w2 = W2) (hb2 : b2 = B2) (q : Fin 128) :
    edgeStep e s r we ws wr b1 w2 b2 (ix2 p q) = edgeStep E S R We Ws Wr B1 W2 B2 (ix2 P q) := by
  subst hwe hws hwr hb1 hw2 hb2
  rw [edgeStep_apply, edgeStep_apply]
  have h0 : row e p = row E P := funext he
  have h1 : row s p = row S P := funext hs
  have h2 : row r p = row R P := funext hr
  rw [h0, h1, h2]

theorem nodeStep_rows {N n : Nat} (X A : (⟨2, ![N, 128]⟩ : Shape).Idx → EReal) (x a : (⟨2, ![n, 128]⟩ : Shape).Idx → EReal)
    (Wn Wa : (⟨2, ![128, 128]⟩ : Shape).Idx → EReal) (B1 : (⟨2, ![1, 128]⟩ : Shape).Idx → EReal)
    (W2 : (⟨2, ![128, 128]⟩ : Shape).Idx → EReal) (B2 : (⟨2, ![1, 128]⟩ : Shape).Idx → EReal)
    (wn wa : (⟨2, ![128, 128]⟩ : Shape).Idx → EReal) (b1 : (⟨2, ![1, 128]⟩ : Shape).Idx → EReal)
    (w2 : (⟨2, ![128, 128]⟩ : Shape).Idx → EReal) (b2 : (⟨2, ![1, 128]⟩ : Shape).Idx → EReal)
    (p : Fin n) (P : Fin N)
    (hx : ∀ k : Fin 128, x (ix2 p k) = X (ix2 P k)) (ha : ∀ k : Fin 128, a (ix2 p k) = A (ix2 P k))
    (hwn : wn = Wn) (hwa : wa = Wa) (hb1 : b1 = B1) (hw2 : w2 = W2) (hb2 : b2 = B2) (q : Fin 128) :
    nodeStep x a wn wa b1 w2 b2 (ix2 p q) = nodeStep X A Wn Wa B1 W2 B2 (ix2 P q) := by
  subst hwn hwa hb1 hw2 hb2
  rw [nodeStep_apply, nodeStep_apply]
  have h0 : row x p = row X P := funext hx
  have h1 : row a p = row A P := funext ha
  rw [h0, h1]

end Cert.Mlp

end
-- ==== Proof.Payload.lean ====
/-
  The two kernel bodies' stored values, entry by entry: each is the step's row function of the blocks it loaded.

  Every operation between the loaded blocks and the stored block is entrywise except the matrix products, so the
  stored block is read at row p and column q. A matrix product into a zero accumulator is there the sum over the
  contracted coordinate a of (left operand at (p, a)) · (right operand at (a, q)); a 1×128 row spread over the 5000
  rows is the row's entry q; a narrowing of the number format is the identity on the extended reals; a cast to the
  same shape is the identity. The hidden layer at (p, k) is therefore the step's hidden row of row p at k, and the
  stored entry is the starting row's entry plus the second product plus the second bias.
-/
import proofs.«127276_j88098369175666_1_alg».proof.Proof.Gen.KernelIdeal.Skeleton
import proofs.«127276_j88098369175666_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Cert.KernelIdeal Cert.KernelIdeal.Gen Idealize.ShloMosaic Idealize.ShloMosaic.ValueIdx

/-- The matrix product's dimension numbers: contract the left operand's columns with the right operand's rows. -/
abbrev DD : DotDims S5000x128 S128x128 S5000x128 := dot_S5000x128_S128x128_S5000x128_1_0_0_1_n_n

/-- The left operand is read at the output's row. -/
theorem DD_lhs_row (p : Fin 5000) (q : Fin 128) (k : DD.contr.Idx) : (DD.lhsIdx (ix2 p q) k 0).val = p.val := by
  unfold DotDims.lhsIdx
  rw [dif_neg (show ¬(0 : Fin S5000x128.rank) ∈ DD.lhsBatch by decide), dif_pos (show (0 : Fin S5000x128.rank) ∈ DD.lhsNonContracting by decide)]
  rfl

/-- The right operand is read at the output's column. -/
theorem DD_rhs_col (p : Fin 5000) (q : Fin 128) (k : DD.contr.Idx) : (DD.rhsIdx (ix2 p q) k 1).val = q.val := by
  unfold DotDims.rhsIdx
  rw [dif_neg (show ¬(1 : Fin S128x128.rank) ∈ DD.rhsBatch by decide), dif_pos (show (1 : Fin S128x128.rank) ∈ DD.rhsNonContracting by decide)]
  rfl

/-- A matrix product into a zero accumulator, read at row p and column q: the sum over the contracted coordinate of
    the left operand's row p against the right operand's column q. -/
theorem matmul_at (lhs : FVec Ideal S5000x128 .bf16) (rhs : FVec Ideal S128x128 .bf16) (p : Fin 5000) (q : Fin 128) :
    matmul DD none lhs rhs (constant S5000x128 .f32 0x00000000#32) (ix2 p q)
      = ∑ a : Fin 128, lhs (ix2 p a) * rhs (ix2 a q) := by
  refine (Ideal.matmul_constant_zero_apply DD none lhs rhs (ix2 p q)).trans ?_
  rw [← Equiv.sum_comp (contrEquiv1 DD 128 rfl rfl).symm]
  refine Finset.sum_congr rfl fun k _ => ?_
  have hk := contrEquiv1_symm_val DD 128 rfl rfl k
  have el : DD.lhsIdx (ix2 p q) ((contrEquiv1 DD 128 rfl rfl).symm k) = ix2 p k := funext fun a => Fin.ext (by
    match a with
    | ⟨0, _⟩ => exact DD_lhs_row p q _
    | ⟨1, _⟩ => exact (DD.lhsIdx_val_of_single rfl (ix2 p q) _).trans hk)
  have er : DD.rhsIdx (ix2 p q) ((contrEquiv1 DD 128 rfl rfl).symm k) = ix2 k q := funext fun a => Fin.ext (by
    match a with
    | ⟨0, _⟩ => exact (DD.rhsIdx_val_of_single rfl (ix2 p q) _).trans hk
    | ⟨1, _⟩ => exact DD_rhs_col p q _)
  rw [el, er]

/-- A 1×128 row spread over 5000 rows, read at row p and column q: the row's entry q. -/
theorem rowBroadcast_at (b : FVec Ideal S1x128 .f32) (p : Fin 5000) (q : Fin 128) :
    broadcastTo S5000x128 b broadcasts_S1x128_S5000x128 (ix2 p q) = b (ix2 0 q) :=
  broadcastTo_apply b broadcasts_S1x128_S5000x128 (ix2 p q) (ix2 0 q) (fun a => match a with
    | ⟨0, _⟩ => by show 0 = if (1 : Nat) = 1 then 0 else p.val; rw [if_pos rfl]
    | ⟨1, _⟩ => by show q.val = if (128 : Nat) = 1 then 0 else q.val; rw [if_neg (by decide)])

/-- The edge kernel's hidden layer at row p, entry k. -/
theorem edge_hidden (x0 x1 x2 : FVec Ideal S5000x128 .f32) (x3 x4 x5 : FVec Ideal S128x128 .bf16) (x6 : FVec Ideal S1x128 .f32)
    (p : Fin 5000) (k : Fin 128) :
    (truncf .bf16
      (maximumf
        (addf
          (addf
            (addf
              (matmul DD none (truncf .bf16 x0 bitsLt_bf16_f32) x3 (constant S5000x128 .f32 0x00000000#32))
              (matmul DD none (truncf .bf16 x1 bitsLt_bf16_f32) x4 (constant S5000x128 .f32 0x00000000#32)))
            (matmul DD none (truncf .bf16 x2 bitsLt_bf16_f32) x5 (constant S5000x128 .f32 0x00000000#32)))
          (broadcastTo S5000x128 x6 broadcasts_S1x128_S5000x128))
        (broadcast S5000x128 (Scalar.ofBits (F := Ideal) .f32 0x00000000#32)))
      bitsLt_bf16_f32 : FVec Ideal S5000x128 .bf16) (ix2 p k)
      = Cert.Mlp.hidden3 (Cert.Mlp.row x0 p) (Cert.Mlp.row x1 p) (Cert.Mlp.row x2 p) (Cert.Mlp.mat x3) (Cert.Mlp.mat x4)
          (Cert.Mlp.mat x5) (Cert.Mlp.bias x6) k := by
  show max (((matmul DD none (truncf .bf16 x0 bitsLt_bf16_f32) x3 (constant S5000x128 .f32 0x00000000#32) (ix2 p k)
      + matmul DD none (truncf .bf16 x1 bitsLt_bf16_f32) x4 (constant S5000x128 .f32 0x00000000#32) (ix2 p k))
      + matmul DD none (truncf .bf16 x2 bitsLt_bf16_f32) x5 (constant S5000x128 .f32 0x00000000#32) (ix2 p k))
      + broadcastTo S5000x128 x6 broadcasts_S1x128_S5000x128 (ix2 p k)) (Ideal.ofBits .f32 0x00000000#32) = _
  rw [matmul_at, matmul_at, matmul_at, rowBroadcast_at, Ideal.ofBits_zero_f32]
  rfl

/-- The edge kernel's stored block is the edge step of the blocks it loaded. -/
theorem edge_payload (x0 x1 x2 : Vec Ideal S5000x128 .f32) (x3 x4 x5 : Vec Ideal S128x128 .bf16) (x6 : Vec Ideal S1x128 .f32)
    (x7 : Vec Ideal S128x128 .bf16) (x8 : Vec Ideal S1x128 .f32) :
    k0_pay1 (F := Ideal) x0 x1 x2 x3 x4 x5 x6 x7 x8 = Cert.Mlp.edgeStep x0 x1 x2 x3 x4 x5 x6 x7 x8 := by
  funext j
  obtain ⟨p, q, rfl⟩ : ∃ (p : Fin 5000) (q : Fin 128), j = ix2 p q := ⟨j 0, j 1, eq_ix2 j⟩
  rw [Cert.Mlp.edgeStep_apply]
  unfold k0_pay1
  simp only [shapeCast_self]
  refine congrArg (x0 (ix2 p q) + ·) ?_
  refine congrArg₂ (· + ·) ((matmul_at _ x7 p q).trans ?_) (rowBroadcast_at x8 p q)
  exact Finset.sum_congr rfl fun a _ => congrArg (· * x7 (ix2 a q)) (edge_hidden x0 x1 x2 x3 x4 x5 x6 p a)

/-- The node kernel's hidden layer at row p, entry k. -/
theorem node_hidden (x0 x1 : FVec Ideal S5000x128 .f32) (x2 x3 : FVec Ideal S128x128 .bf16) (x4 : FVec Ideal S1x128 .f32)
    (p : Fin 5000) (k : Fin 128) :
    (truncf .bf16
      (maximumf
        (addf
          (addf
            (matmul DD none (truncf .bf16 x0 bitsLt_bf16_f32) x2 (constant S5000x128 .f32 0x00000000#32))
            (matmul DD none (truncf .bf16 x1 bitsLt_bf16_f32) x3 (constant S5000x128 .f32 0x00000000#32)))
          (broadcastTo S5000x128 x4 broadcasts_S1x128_S5000x128))
        (broadcast S5000x128 (Scalar.ofBits (F := Ideal) .f32 0x00000000#32)))
      bitsLt_bf16_f32 : FVec Ideal S5000x128 .bf16) (ix2 p k)
      = Cert.Mlp.hidden2 (Cert.Mlp.row x0 p) (Cert.Mlp.row x1 p) (Cert.Mlp.mat x2) (Cert.Mlp.mat x3) (Cert.Mlp.bias x4) k := by
  show max ((matmul DD none (truncf .bf16 x0 bitsLt_bf16_f32) x2 (constant S5000x128 .f32 0x00000000#32) (ix2 p k)
      + matmul DD none (truncf .bf16 x1 bitsLt_bf16_f32) x3 (constant S5000x128 .f32 0x00000000#32) (ix2 p k))
      + broadcastTo S5000x128 x4 broadcasts_S1x128_S5000x128 (ix2 p k)) (Ideal.ofBits .f32 0x00000000#32) = _
  rw [matmul_at, matmul_at, rowBroadcast_at, Ideal.ofBits_zero_f32]
  rfl

/-- The node kernel's stored block is the node step of the blocks it loaded. -/
theorem node_payload (x0 x1 : Vec Ideal S5000x128 .f32) (x2 x3 : Vec Ideal S128x128 .bf16) (x4 : Vec Ideal S1x128 .f32)
    (x5 : Vec Ideal S128x128 .bf16) (x6 : Vec Ideal S1x128 .f32) :
    k1_pay1 (F := Ideal) x0 x1 x2 x3 x4 x5 x6 = Cert.Mlp.nodeStep x0 x1 x2 x3 x4 x5 x6 := by
  funext j
  obtain ⟨p, q, rfl⟩ : ∃ (p : Fin 5000) (q : Fin 128), j = ix2 p q := ⟨j 0, j 1, eq_ix2 j⟩
  rw [Cert.Mlp.nodeStep_apply]
  unfold k1_pay1
  simp only [shapeCast_self]
  refine congrArg (x0 (ix2 p q) + ·) ?_
  refine congrArg₂ (· + ·) ((matmul_at _ x5 p q).trans ?_) (rowBroadcast_at x6 p q)
  exact Finset.sum_congr rfl fun a _ => congrArg (· * x5 (ix2 a q)) (node_hidden x0 x1 x2 x3 x4 p a)

end Cert.KernelIdeal.Payload

end
-- ==== Proof.Region.lean ====
/-
  Each region's output array after all its write-backs is the step applied to the arrays the region finds.

  A grid point's block of the output is rows 5000·t … 5000·t + 5000 of the array, all 128 columns; the row-wise
  inputs' blocks are the same rows of their arrays, and every weight matrix and bias is one block that is the whole
  array. The body stores the step of the blocks it loaded, the step treats rows independently, so what point t
  writes back is block t of the step of the whole arrays; the blocks tile the array (row i lies in block i / 5000).
-/
import proofs.«127276_j88098369175666_1_alg».proof.Proof.Gen.KernelIdeal.Frame
import proofs.«127276_j88098369175666_1_alg».proof.Proof.Spec
import proofs.«127276_j88098369175666_1_alg».proof.Proof.Payload
import Idealize.ShloMosaic.Lib.Pipeline.Value
import Idealize.ShloMosaic.Lib.ValueIdx

set_option maxRecDepth 16384

noncomputable section

namespace Cert.KernelIdeal.Region

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-! ## Region 0: the edge step -/

/-- The printed index maps over the grid: the row-wise windows and the output sit at block (t, 0), every weight
    and bias window at block (0, 0). -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0 :=
  (by decide +kernel : ∀ t : Fin grid0.N, _)

theorem N0 : cfg0.N = 100 := N_0

/-- WHAT POINT t WRITES BACK is block t of the edge step of the arrays as the region finds them. -/
theorem edge_flushed (c : Dev nD) (t : Fin cfg0.N) :
    (dat0 V c).flushed 9 t = ((cfg0.win 9).blk t).view.read (Elt Ideal)
      (Cert.Mlp.edgeStep (V c main_arg1) (V c main_v6) (V c main_v13) (V c main_v15) (V c main_v17) (V c main_v19)
        (V c main_v21) (V c main_v20) (V c main_v22)) := by
  show (cfg0.win 9).cut (grid0.coords t) ((dat0 V c).after 9 t) = _
  rw [after0_9]
  unfold out0_9
  rw [View.canon_unit_zero hz]
  simp only [View.ld_unit_zero (S := S5000x128) hz, View.ld_unit_zero (S := S128x128) hz, View.ld_unit_zero (S := S1x128) hz]
  rw [Cert.KernelIdeal.Payload.edge_payload]
  obtain ⟨e00, e01, e10, e11, e20, e21, e30, e31, e40, e41, e50, e51, e60, e61, e70, e71, e80, e81, e90, e91⟩ := idx_facts0 t
  have ht : t.val < 100 := N0 ▸ t.isLt
  funext y
  obtain ⟨p, q, rfl⟩ : ∃ (p : Fin 5000) (q : Fin 128), y = ix2 p q := ⟨y 0, y 1, eq_ix2 y⟩
  show Cert.Mlp.edgeStep (iblk0 V c 0 t) (iblk0 V c 1 t) (iblk0 V c 2 t) (iblk0 V c 3 t) (iblk0 V c 4 t) (iblk0 V c 5 t)
    (iblk0 V c 6 t) (iblk0 V c 7 t) (iblk0 V c 8 t) (ix2 p q)
    = Cert.Mlp.edgeStep (V c main_arg1) (V c main_v6) (V c main_v13) (V c main_v15) (V c main_v17) (V c main_v19)
    (V c main_v21) (V c main_v20) (V c main_v22) (((cfg0.win 9).blk t).view.emb (ix2 p q))
  have hP : t.val * 5000 + p.val < 500000 := by have := p.isLt; omega
  have hemb : ((cfg0.win 9).blk t).view.emb (ix2 p q) = ix2 ⟨t.val * 5000 + p.val, hP⟩ q := by
    funext d; apply Fin.ext
    match d with
    | ⟨0, _⟩ => show win0_9.index t (0 : Fin 2) * 5000 + 1 * p.val = t.val * 5000 + p.val; omega
    | ⟨1, _⟩ => show win0_9.index t (1 : Fin 2) * 128 + 1 * q.val = q.val; omega
  rw [hemb]
  refine Cert.Mlp.edgeStep_rows (V c main_arg1) (V c main_v6) (V c main_v13) (iblk0 V c 0 t) (iblk0 V c 1 t) (iblk0 V c 2 t)
    (V c main_v15) (V c main_v17) (V c main_v19) (V c main_v21) (V c main_v20) (V c main_v22)
    (iblk0 V c 3 t) (iblk0 V c 4 t) (iblk0 V c 5 t) (iblk0 V c 6 t) (iblk0 V c 7 t) (iblk0 V c 8 t)
    p ⟨t.val * 5000 + p.val, hP⟩ ?_ ?_ ?_ ?_ ?_ ?_ ?_ ?_ ?_ q
  · intro a
    show V c main_arg1 (((cfg0.win 0).blk t).view.emb (ix2 p a)) = V c main_arg1 (ix2 ⟨t.val * 5000 + p.val, hP⟩ a)
    refine congrArg _ (funext fun d => Fin.ext ?_)
    match d with
    | ⟨0, _⟩ => show win0_0.index t (0 : Fin 2) * 5000 + 1 * p.val = t.val * 5000 + p.val; omega
    | ⟨1, _⟩ => show win0_0.index t (1 : Fin 2) * 128 + 1 * a.val = a.val; omega
  · intro a
    show V c main_v6 (((cfg0.win 1).blk t).view.emb (ix2 p a)) = V c main_v6 (ix2 ⟨t.val * 5000 + p.val, hP⟩ a)
    refine congrArg _ (funext fun d => Fin.ext ?_)
    match d with
    | ⟨0, _⟩ => show win0_1.index t (0 : Fin 2) * 5000 + 1 * p.val = t.val * 5000 + p.val; omega
    | ⟨1, _⟩ => show win0_1.index t (1 : Fin 2) * 128 + 1 * a.val = a.val; omega
  · intro a
    show V c main_v13 (((cfg0.win 2).blk t).view.emb (ix2 p a)) = V c main_v13 (ix2 ⟨t.val * 5000 + p.val, hP⟩ a)
    refine congrArg _ (funext fun d => Fin.ext ?_)
    match d with
    | ⟨0, _⟩ => show win0_2.index t (0 : Fin 2) * 5000 + 1 * p.val = t.val * 5000 + p.val; omega
    | ⟨1, _⟩ => show win0_2.index t (1 : Fin 2) * 128 + 1 * a.val = a.val; omega
  · funext y
    show V c main_v15 (((cfg0.win 3).blk t).view.emb y) = V c main_v15 y
    refine congrArg _ (funext fun d => Fin.ext ?_)
    match d with
    | ⟨0, _⟩ => show win0_3.index t (0 : Fin 2) * 128 + 1 * (y 0).val = (y 0).val; omega
    | ⟨1, _⟩ => show win0_3.index t (1 : Fin 2) * 128 + 1 * (y 1).val = (y 1).val; omega
  · funext y
    show V c main_v17 (((cfg0.win 4).blk t).view.emb y) = V c main_v17 y
    refine congrArg _ (funext fun d => Fin.ext ?_)
    match d with
    | ⟨0, _⟩ => show win0_4.index t (0 : Fin 2) * 128 + 1 * (y 0).val = (y 0).val; omega
    | ⟨1, _⟩ => show win0_4.index t (1 : Fin 2) * 128 + 1 * (y 1).val = (y 1).val; omega
  · funext y
    show V c main_v19 (((cfg0.win 5).blk t).view.emb y) = V c main_v19 y
    refine congrArg _ (funext fun d => Fin.ext ?_)
    match d with
    | ⟨0, _⟩ => show win0_5.index t (0 : Fin 2) * 128 + 1 * (y 0).val = (y 0).val; omega
    | ⟨1, _⟩ => show win0_5.index t (1 : Fin 2) * 128 + 1 * (y 1).val = (y 1).val; omega
  · funext y
    show V c main_v21 (((cfg0.win 6).blk t).view.emb y) = V c main_v21 y
    refine congrArg _ (funext fun d => Fin.ext ?_)
    match d with
    | ⟨0, _⟩ => show win0_6.index t (0 : Fin 2) * 1 + 1 * (y 0).val = (y 0).val; omega
    | ⟨1, _⟩ => show win0_6.index t (1 : Fin 2) * 128 + 1 * (y 1).val = (y 1).val; omega
  · funext y
    show V c main_v20 (((cfg0.win 7).blk t).view.emb y) = V c main_v20 y
    refine congrArg _ (funext fun d => Fin.ext ?_)
    match d with
    | ⟨0, _⟩ => show win0_7.index t (0 : Fin 2) * 128 + 1 * (y 0).val = (y 0).val; omega
    | ⟨1, _⟩ => show win0_7.index t (1 : Fin 2) * 128 + 1 * (y 1).val = (y 1).val; omega
  · funext y
    show V c main_v22 (((cfg0.win 8).blk t).view.emb y) = V c main_v22 y
    refine congrArg _ (funext fun d => Fin.ext ?_)
    match d with
    | ⟨0, _⟩ => show win0_8.index t (0 : Fin 2) * 1 + 1 * (y 0).val = (y 0).val; omega
    | ⟨1, _⟩ => show win0_8.index t (1 : Fin 2) * 128 + 1 * (y 1).val = (y 1).val; omega

/-- An index of the edge array is in point t's block iff each coordinate is in the block's range on its axis. -/
theorem mem_blk0 (t : Fin cfg0.N) (i : S500000x128.Idx) :
    i ∈ ((cfg0.win 9).blk t).view.set ↔ ∀ a : Fin 2, win0_9.index t a * S5000x128.size a ≤ (i a).val ∧ (i a).val < win0_9.index t a * S5000x128.size a + S5000x128.size a := by
  show i ∈ ((View.whole main_v23).slice (win0_9.rect t)).set ↔ _
  rw [View.set_slice_whole, Rect.mem_set_unit]
  exact Iff.rfl

/-- Every index of the edge array lies in the block of the point its row divided by 5000 names. -/
theorem edge_cover (i : S500000x128.Idx) :
    ∃ t : Fin cfg0.N, (cfg0.win 9).flush t = true ∧ i ∈ ((cfg0.win 9).blk t).view.set := by
  have hi0 : (i 0).val < 500000 := idx2_lt0 i
  have hi1 : (i 1).val < 128 := idx2_lt1 i
  have hlt : (i 0).val / 5000 < cfg0.N := by rw [N0]; omega
  refine ⟨⟨(i 0).val / 5000, hlt⟩, flush0_9 _, ?_⟩
  obtain ⟨-, -, -, -, -, -, -, -, -, -, -, -, -, -, -, -, -, -, e90, e91⟩ := idx_facts0 ⟨(i 0).val / 5000, hlt⟩
  have e90' : win0_9.index ⟨(i 0).val / 5000, hlt⟩ (0 : Fin 2) = (i 0).val / 5000 := e90
  rw [mem_blk0]
  intro a
  match a with
  | ⟨0, _⟩ => show win0_9.index ⟨(i 0).val / 5000, hlt⟩ (0 : Fin 2) * 5000 ≤ (i 0).val ∧ (i 0).val < win0_9.index ⟨(i 0).val / 5000, hlt⟩ (0 : Fin 2) * 5000 + 5000; omega
  | ⟨1, _⟩ => show win0_9.index ⟨(i 0).val / 5000, hlt⟩ (1 : Fin 2) * 128 ≤ (i 1).val ∧ (i 1).val < win0_9.index ⟨(i 0).val / 5000, hlt⟩ (1 : Fin 2) * 128 + 128; omega

/-- THE EDGE ARRAY after region 0: the edge step of the arrays the region finds. -/
theorem edge_region (c : Dev nD) :
    (dat0 V c).arrAt 9 cfg0.N
      = Cert.Mlp.edgeStep (V c main_arg1) (V c main_v6) (V c main_v13) (V c main_v15) (V c main_v17) (V c main_v19)
          (V c main_v21) (V c main_v20) (V c main_v22) :=
  (dat0 V c).arrAt_eq_of_cover 9 _ (fun t _ => edge_flushed V c t) edge_cover

/-! ## Region 1: the node step -/

/-- The printed index maps over the grid: the row-wise windows and the output sit at block (t, 0), every weight
    and bias window at block (0, 0). -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

theorem N1 : cfg1.N = 20 := N_1

/-- WHAT POINT t WRITES BACK is block t of the node step of the arrays as the region finds them. -/
theorem node_flushed (c : Dev nD) (t : Fin cfg1.N) :
    (dat1 V c).flushed 7 t = ((cfg1.win 7).blk t).view.read (Elt Ideal)
      (Cert.Mlp.nodeStep (V c main_arg0) (V c main_v26) (V c main_v28) (V c main_v30) (V c main_v32) (V c main_v31) (V c main_v33)) := by
  show (cfg1.win 7).cut (grid1.coords t) ((dat1 V c).after 7 t) = _
  rw [after1_7]
  unfold out1_7
  rw [View.canon_unit_zero hz]
  simp only [View.ld_unit_zero (S := S5000x128) hz, View.ld_unit_zero (S := S128x128) hz, View.ld_unit_zero (S := S1x128) hz]
  rw [Cert.KernelIdeal.Payload.node_payload]
  obtain ⟨e00, e01, e10, e11, e20, e21, e30, e31, e40, e41, e50, e51, e60, e61, e70, e71⟩ := idx_facts1 t
  have ht : t.val < 20 := N1 ▸ t.isLt
  funext y
  obtain ⟨p, q, rfl⟩ : ∃ (p : Fin 5000) (q : Fin 128), y = ix2 p q := ⟨y 0, y 1, eq_ix2 y⟩
  show Cert.Mlp.nodeStep (iblk1 V c 0 t) (iblk1 V c 1 t) (iblk1 V c 2 t) (iblk1 V c 3 t) (iblk1 V c 4 t) (iblk1 V c 5 t) (iblk1 V c 6 t) (ix2 p q)
    = Cert.Mlp.nodeStep (V c main_arg0) (V c main_v26) (V c main_v28) (V c main_v30) (V c main_v32) (V c main_v31) (V c main_v33)
        (((cfg1.win 7).blk t).view.emb (ix2 p q))
  have hP : t.val * 5000 + p.val < 100000 := by have := p.isLt; omega
  have hemb : ((cfg1.win 7).blk t).view.emb (ix2 p q) = ix2 ⟨t.val * 5000 + p.val, hP⟩ q := by
    funext d; apply Fin.ext
    match d with
    | ⟨0, _⟩ => show win1_7.index t (0 : Fin 2) * 5000 + 1 * p.val = t.val * 5000 + p.val; omega
    | ⟨1, _⟩ => show win1_7.index t (1 : Fin 2) * 128 + 1 * q.val = q.val; omega
  rw [hemb]
  refine Cert.Mlp.nodeStep_rows (V c main_arg0) (V c main_v26) (iblk1 V c 0 t) (iblk1 V c 1 t)
    (V c main_v28) (V c main_v30) (V c main_v32) (V c main_v31) (V c main_v33)
    (iblk1 V c 2 t) (iblk1 V c 3 t) (iblk1 V c 4 t) (iblk1 V c 5 t) (iblk1 V c 6 t)
    p ⟨t.val * 5000 + p.val, hP⟩ ?_ ?_ ?_ ?_ ?_ ?_ ?_ q
  · intro a
    show V c main_arg0 (((cfg1.win 0).blk t).view.emb (ix2 p a)) = V c main_arg0 (ix2 ⟨t.val * 5000 + p.val, hP⟩ a)
    refine congrArg _ (funext fun d => Fin.ext ?_)
    match d with
    | ⟨0, _⟩ => show win1_0.index t (0 : Fin 2) * 5000 + 1 * p.val = t.val * 5000 + p.val; omega
    | ⟨1, _⟩ => show win1_0.index t (1 : Fin 2) * 128 + 1 * a.val = a.val; omega
  · intro a
    show V c main_v26 (((cfg1.win 1).blk t).view.emb (ix2 p a)) = V c main_v26 (ix2 ⟨t.val * 5000 + p.val, hP⟩ a)
    refine congrArg _ (funext fun d => Fin.ext ?_)
    match d with
    | ⟨0, _⟩ => show win1_1.index t (0 : Fin 2) * 5000 + 1 * p.val = t.val * 5000 + p.val; omega
    | ⟨1, _⟩ => show win1_1.index t (1 : Fin 2) * 128 + 1 * a.val = a.val; omega
  · funext y
    show V c main_v28 (((cfg1.win 2).blk t).view.emb y) = V c main_v28 y
    refine congrArg _ (funext fun d => Fin.ext ?_)
    match d with
    | ⟨0, _⟩ => show win1_2.index t (0 : Fin 2) * 128 + 1 * (y 0).val = (y 0).val; omega
    | ⟨1, _⟩ => show win1_2.index t (1 : Fin 2) * 128 + 1 * (y 1).val = (y 1).val; omega
  · funext y
    show V c main_v30 (((cfg1.win 3).blk t).view.emb y) = V c main_v30 y
    refine congrArg _ (funext fun d => Fin.ext ?_)
    match d with
    | ⟨0, _⟩ => show win1_3.index t (0 : Fin 2) * 128 + 1 * (y 0).val = (y 0).val; omega
    | ⟨1, _⟩ => show win1_3.index t (1 : Fin 2) * 128 + 1 * (y 1).val = (y 1).val; omega
  · funext y
    show V c main_v32 (((cfg1.win 4).blk t).view.emb y) = V c main_v32 y
    refine congrArg _ (funext fun d => Fin.ext ?_)
    match d with
    | ⟨0, _⟩ => show win1_4.index t (0 : Fin 2) * 1 + 1 * (y 0).val = (y 0).val; omega
    | ⟨1, _⟩ => show win1_4.index t (1 : Fin 2) * 128 + 1 * (y 1).val = (y 1).val; omega
  · funext y
    show V c main_v31 (((cfg1.win 5).blk t).view.emb y) = V c main_v31 y
    refine congrArg _ (funext fun d => Fin.ext ?_)
    match d with
    | ⟨0, _⟩ => show win1_5.index t (0 : Fin 2) * 128 + 1 * (y 0).val = (y 0).val; omega
    | ⟨1, _⟩ => show win1_5.index t (1 : Fin 2) * 128 + 1 * (y 1).val = (y 1).val; omega
  · funext y
    show V c main_v33 (((cfg1.win 6).blk t).view.emb y) = V c main_v33 y
    refine congrArg _ (funext fun d => Fin.ext ?_)
    match d with
    | ⟨0, _⟩ => show win1_6.index t (0 : Fin 2) * 1 + 1 * (y 0).val = (y 0).val; omega
    | ⟨1, _⟩ => show win1_6.index t (1 : Fin 2) * 128 + 1 * (y 1).val = (y 1).val; omega

/-- An index of the node array is in point t's block iff each coordinate is in the block's range on its axis. -/
theorem mem_blk1 (t : Fin cfg1.N) (i : S100000x128.Idx) :
    i ∈ ((cfg1.win 7).blk t).view.set ↔ ∀ a : Fin 2, win1_7.index t a * S5000x128.size a ≤ (i a).val ∧ (i a).val < win1_7.index t a * S5000x128.size a + S5000x128.size a := by
  show i ∈ ((View.whole main_v34).slice (win1_7.rect t)).set ↔ _
  rw [View.set_slice_whole, Rect.mem_set_unit]
  exact Iff.rfl

/-- Every index of the node array lies in the block of the point its row divided by 5000 names. -/
theorem node_cover (i : S100000x128.Idx) :
    ∃ t : Fin cfg1.N, (cfg1.win 7).flush t = true ∧ i ∈ ((cfg1.win 7).blk t).view.set := by
  have hi0 : (i 0).val < 100000 := idx2_lt0 i
  have hi1 : (i 1).val < 128 := idx2_lt1 i
  have hlt : (i 0).val / 5000 < cfg1.N := by rw [N1]; omega
  refine ⟨⟨(i 0).val / 5000, hlt⟩, flush1_7 _, ?_⟩
  obtain ⟨-, -, -, -, -, -, -, -, -, -, -, -, -, -, e70, e71⟩ := idx_facts1 ⟨(i 0).val / 5000, hlt⟩
  have e70' : win1_7.index ⟨(i 0).val / 5000, hlt⟩ (0 : Fin 2) = (i 0).val / 5000 := e70
  rw [mem_blk1]
  intro a
  match a with
  | ⟨0, _⟩ => show win1_7.index ⟨(i 0).val / 5000, hlt⟩ (0 : Fin 2) * 5000 ≤ (i 0).val ∧ (i 0).val < win1_7.index ⟨(i 0).val / 5000, hlt⟩ (0 : Fin 2) * 5000 + 5000; omega
  | ⟨1, _⟩ => show win1_7.index ⟨(i 0).val / 5000, hlt⟩ (1 : Fin 2) * 128 ≤ (i 1).val ∧ (i 1).val < win1_7.index ⟨(i 0).val / 5000, hlt⟩ (1 : Fin 2) * 128 + 128; omega

/-- THE NODE ARRAY after region 1: the node step of the arrays the region finds. -/
theorem node_region (c : Dev nD) :
    (dat1 V c).arrAt 7 cfg1.N
      = Cert.Mlp.nodeStep (V c main_arg0) (V c main_v26) (V c main_v28) (V c main_v30) (V c main_v32) (V c main_v31) (V c main_v33) :=
  (dat1 V c).arrAt_eq_of_cover 7 _ (fun t _ => node_flushed V c t) node_cover

end Cert.KernelIdeal.Region

end
-- ==== Proof.KRun.lean ====
/-
  The kernel program's run with its two results named. The program is two kernel regions among stretches of host
  operations; after the last region every unscoped buffer of a core holds the last boundary's contents. The new node
  array is the second region's output as its write-backs leave it, and the new edge array is the first region's
  output as its write-backs leave it: no later host operation and no window of the second region writes that buffer.
-/
import proofs.«127276_j88098369175666_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The new node array's buffer at the last boundary is the second region's output array after all its
    write-backs. -/
theorem W4_main_v34 (c : Dev nD) : W4 m ρ c (Proc.devRef .tc main_v34) = (dat1 (V3 m ρ) c).arrAt 7 cfg1.N :=
  W4_arr m ρ c 7

/-- The new edge array's buffer at the last boundary is the first region's output array after all its write-backs:
    the second region has no window on it and the host operations between the regions do not write it. -/
theorem W4_main_v23 (c : Dev nD) : W4 m ρ c (Proc.devRef .tc main_v23) = (dat0 (V1 m ρ) c).arrAt 9 cfg0.N :=
  calc W4 m ρ c (Proc.devRef .tc main_v23)
    _ = W3 m ρ c (Proc.devRef .tc main_v23) := W4_of_ne m ρ c main_v23 (by decide)
    _ = W2 m ρ c (Proc.devRef .tc main_v23) := StableHlo.after_of_forall_not_mem (b := Proc.devRef .tc main_v23) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (dat0 (V1 m ρ) c).arrAt 9 cfg0.N := W2_arr m ρ c 9

set_option backward.isDefEq.respectTransparency.types false in
/-- Every weakly fair execution of the kernel program terminates without a fault, with the new node array at the
    second region's output, the new edge array at the first region's output, and the arguments as launched. -/
theorem run_results : θ_run defs (onTc (τ := τ) (main (F := F))) ⟨m, fun _ => 0, ρ⟩ (fun r => ∀ c : Dev nD,
      r.2.mem ((c.tc : Thread nD τ).loc main_v34) = (dat1 (V3 m ρ) c).arrAt 7 cfg1.N
      ∧ r.2.mem ((c.tc : Thread nD τ).loc main_v23) = (dat0 (V1 m ρ) c).arrAt 9 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v34 (by decide))).trans (W4_main_v34 m ρ c),
       (h c _ (mem_uc main_v23 (by decide))).trans (W4_main_v23 m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c)⟩)

end Cert.KernelIdeal.KRun

end
-- ==== Proof.Glue.lean ====
/-
  The kernel program's host side, read: what each window of the two regions finds in its array, and with that the two
  results as functions of the argument arrays.

  Before the first region the host gathers the senders' and the receivers' rows of the node array (an index below
  zero wrapped by the number of nodes first), cuts the first edge weight matrix into its three blocks of 128 rows,
  and reshapes the biases to rows; a narrowing of the number format is the identity on the extended reals. Between
  the regions it adds every new edge row into the row of its receiver, starting from zeros, and cuts the first node
  weight matrix into its two blocks. Nothing writes an argument array.
-/
import proofs.«127276_j88098369175666_1_alg».proof.Proof.Gen.KernelIdeal.Frame
import proofs.«127276_j88098369175666_1_alg».proof.Proof.Spec
import proofs.«127276_j88098369175666_1_alg».proof.Proof.Region
import proofs.«127276_j88098369175666_1_alg».proof.Proof.KRun
import Idealize.ShloMosaic.Lib.StableHlo.Run
import Idealize.ShloMosaic.Lib.Pipeline.Value
import Idealize.ShloMosaic.Lib.ValueIdx
import Idealize.ShloMosaic.PureOps.Ideal

set_option maxRecDepth 16384

noncomputable section

namespace Cert.KernelIdeal.Glue

open Cert.KernelIdeal Cert.KernelIdeal.Gen
open Idealize.ShloMosaic Idealize.ShloMosaic.TcCoe Idealize.ShloMosaic.ValueIdx Idealize.SL.Sem Idealize.ShloMosaic.StableHlo

/-! ## The host operations as functions -/

/-- An index array with every entry below zero moved up by the number of nodes, as a column. -/
def wrapIdx (x : (⟨S500000, .i32⟩ : BufTy).Contents (Elt Ideal)) : (⟨S500000x1, .i32⟩ : BufTy).Contents (Elt Ideal) :=
  broadcastInDim S500000x1 ![0] bcast_S500000_S500000x1_0
    (select (cmpi .slt x (broadcastInDim S500000 ![] bcast_S_S500000 (constantI S_ 32 0#32)))
      (addi x (broadcastInDim S500000 ![] bcast_S_S500000 (constantI S_ 32 100000#32))) x)

/-- The rows of the node array the indices name. -/
def gathered (X : (⟨S100000x128, .f32⟩ : BufTy).Contents (Elt Ideal)) (x : (⟨S500000, .i32⟩ : BufTy).Contents (Elt Ideal)) :
    (⟨S500000x128, .f32⟩ : BufTy).Contents (Elt Ideal) :=
  Host.gather gather_S100000x128_S500000x1_S500000x128_1_0_n_n_0_1_1128 X (wrapIdx x)

/-- Every edge row added into the row of the node its index names, starting from zeros. -/
def aggregated (x : (⟨S500000, .i32⟩ : BufTy).Contents (Elt Ideal)) (U : (⟨S500000x128, .f32⟩ : BufTy).Contents (Elt Ideal)) :
    (⟨S100000x128, .f32⟩ : BufTy).Contents (Elt Ideal) :=
  Host.scatterAdd scatter_S100000x128_S500000x1_S500000x128_1_0_0_1
    (broadcastInDim S100000x128 ![] bcast_S_S100000x128 (constant (F := Ideal) S_ .f32 0x00000000#32))
    (broadcastInDim S500000x1 ![0] bcast_S500000_S500000x1_0 x) U

/-- A slice of 128 rows of a matrix of 128 columns, all columns, is those rows. -/
theorem slice_rows {T : Nat} (o : Nat) (ho : o + 128 ≤ T) (X : (⟨2, ![T, 128]⟩ : Shape).Idx → EReal)
    (h : (⟨2, ![T, 128]⟩ : Shape).Slices ![o, 0] ⟨2, ![128, 128]⟩) :
    extractStridedSlice ⟨2, ![128, 128]⟩ ![o, 0] X h = Cert.Mlp.rowsFrom o ho X := by
  funext j
  refine extractStridedSlice_apply ![o, 0] X h j _ (fun a => ?_)
  match a with
  | ⟨0, _⟩ => rfl
  | ⟨1, _⟩ => exact (Nat.zero_add _).symm

/-- A vector of 128 entries reshaped to 1×128 is the vector as a row. -/
theorem reshape_row (b : (⟨1, ![128]⟩ : Shape).Idx → EReal) (h : (⟨1, ![128]⟩ : Shape).ShapeCasts ⟨2, ![1, 128]⟩) :
    (fun i => shapeCast ⟨2, ![1, 128]⟩ b h i) = Cert.Mlp.asRow b := by
  funext j
  refine (shapeCast_addUnit_apply ![128] b h j).trans (congrArg b (funext fun a => ?_))
  match a with
  | ⟨0, _⟩ => rfl

/-! ## The two results as functions of the arguments -/

/-- The new edge array: the edge step of the edge array, the gathered rows, the first weight matrix's three blocks. -/
def edgeOut (x0 : (⟨S100000x128, .f32⟩ : BufTy).Contents (Elt Ideal)) (x1 : (⟨S500000x128, .f32⟩ : BufTy).Contents (Elt Ideal))
    (x2 x3 : (⟨S500000, .i32⟩ : BufTy).Contents (Elt Ideal)) (x4 : (⟨S384x128, .f32⟩ : BufTy).Contents (Elt Ideal))
    (x5 : (⟨S128, .f32⟩ : BufTy).Contents (Elt Ideal)) (x6 : (⟨S128x128, .f32⟩ : BufTy).Contents (Elt Ideal))
    (x7 : (⟨S128, .f32⟩ : BufTy).Contents (Elt Ideal)) : (⟨S500000x128, .f32⟩ : BufTy).Contents (Elt Ideal) :=
  Cert.Mlp.edgeStep x1 (gathered x0 x2) (gathered x0 x3)
    (Cert.Mlp.rowsFrom 0 (by norm_num) x4) (Cert.Mlp.rowsFrom 128 (by norm_num) x4) (Cert.Mlp.rowsFrom 256 (by norm_num) x4)
    (Cert.Mlp.asRow x5) x6 (Cert.Mlp.asRow x7)

/-- The new node array: the node step of the node array and the new edges aggregated at their receivers. -/
def nodeOut (x0 : (⟨S100000x128, .f32⟩ : BufTy).Contents (Elt Ideal)) (x3 : (⟨S500000, .i32⟩ : BufTy).Contents (Elt Ideal))
    (U : (⟨S500000x128, .f32⟩ : BufTy).Contents (Elt Ideal)) (x8 : (⟨S256x128, .f32⟩ : BufTy).Contents (Elt Ideal))
    (x9 : (⟨S128, .f32⟩ : BufTy).Contents (Elt Ideal)) (x10 : (⟨S128x128, .f32⟩ : BufTy).Contents (Elt Ideal))
    (x11 : (⟨S128, .f32⟩ : BufTy).Contents (Elt Ideal)) : (⟨S100000x128, .f32⟩ : BufTy).Contents (Elt Ideal) :=
  Cert.Mlp.nodeStep x0 (aggregated x3 U)
    (Cert.Mlp.rowsFrom 0 (by norm_num) x8) (Cert.Mlp.rowsFrom 128 (by norm_num) x8)
    (Cert.Mlp.asRow x9) x10 (Cert.Mlp.asRow x11)

variable (m : (ℓ : Loc nD τ sig) → Buf (Elt Ideal) ℓ) (ρ : Dev nD → PrngReg)

/-! ## What region 0's windows find -/

set_option maxHeartbeats 1000000 in
theorem V1_arg1 (c : Dev nD) : V1 m ρ c main_arg1 = m ((c : Thread nD τ).loc main_arg1) := by
  show StableHlo.after hostOps0 (W0 m ρ c) (Proc.devRef .tc main_arg1) = _
  after_results_simp <;> rfl

set_option maxHeartbeats 1000000 in
theorem V1_v6 (c : Dev nD) : V1 m ρ c main_v6 = gathered (m ((c : Thread nD τ).loc main_arg0)) (m ((c : Thread nD τ).loc main_arg2)) := by
  show StableHlo.after hostOps0 (W0 m ρ c) (Proc.devRef .tc main_v6) = _
  after_results_simp <;> rfl

set_option maxHeartbeats 1000000 in
theorem V1_v13 (c : Dev nD) : V1 m ρ c main_v13 = gathered (m ((c : Thread nD τ).loc main_arg0)) (m ((c : Thread nD τ).loc main_arg3)) := by
  show StableHlo.after hostOps0 (W0 m ρ c) (Proc.devRef .tc main_v13) = _
  after_results_simp <;> rfl

set_option maxHeartbeats 1000000 in
theorem V1_v15 (c : Dev nD) : V1 m ρ c main_v15 = Cert.Mlp.rowsFrom 0 (by norm_num) (m ((c : Thread nD τ).loc main_arg4)) := by
  show StableHlo.after hostOps0 (W0 m ρ c) (Proc.devRef .tc main_v15) = _
  after_results_simp
  exact slice_rows 0 (by norm_num) (m ((c : Thread nD τ).loc main_arg4)) slices_S384x128_S128x128_0_0

set_option maxHeartbeats 1000000 in
theorem V1_v17 (c : Dev nD) : V1 m ρ c main_v17 = Cert.Mlp.rowsFrom 128 (by norm_num) (m ((c : Thread nD τ).loc main_arg4)) := by
  show StableHlo.after hostOps0 (W0 m ρ c) (Proc.devRef .tc main_v17) = _
  after_results_simp
  exact slice_rows 128 (by norm_num) (m ((c : Thread nD τ).loc main_arg4)) slices_S384x128_S128x128_128_0

set_option maxHeartbeats 1000000 in
theorem V1_v19 (c : Dev nD) : V1 m ρ c main_v19 = Cert.Mlp.rowsFrom 256 (by norm_num) (m ((c : Thread nD τ).loc main_arg4)) := by
  show StableHlo.after hostOps0 (W0 m ρ c) (Proc.devRef .tc main_v19) = _
  after_results_simp
  exact slice_rows 256 (by norm_num) (m ((c : Thread nD τ).loc main_arg4)) slices_S384x128_S128x128_256_0

set_option maxHeartbeats 1000000 in
theorem V1_v21 (c : Dev nD) : V1 m ρ c main_v21 = Cert.Mlp.asRow (m ((c : Thread nD τ).loc main_arg5)) := by
  show StableHlo.after hostOps0 (W0 m ρ c) (Proc.devRef .tc main_v21) = _
  after_results_simp
  exact reshape_row (m ((c : Thread nD τ).loc main_arg5)) shapeCasts_S128_S1x128

set_option maxHeartbeats 1000000 in
theorem V1_v20 (c : Dev nD) : V1 m ρ c main_v20 = m ((c : Thread nD τ).loc main_arg6) := by
  show StableHlo.after hostOps0 (W0 m ρ c) (Proc.devRef .tc main_v20) = _
  after_results_simp <;> rfl

set_option maxHeartbeats 1000000 in
theorem V1_v22 (c : Dev nD) : V1 m ρ c main_v22 = Cert.Mlp.asRow (m ((c : Thread nD τ).loc main_arg7)) := by
  show StableHlo.after hostOps0 (W0 m ρ c) (Proc.devRef .tc main_v22) = _
  after_results_simp
  exact reshape_row (m ((c : Thread nD τ).loc main_arg7)) shapeCasts_S128_S1x128

/-- THE NEW EDGE ARRAY after region 0, as a function of the arguments. -/
theorem edge_value (c : Dev nD) :
    (dat0 (V1 m ρ) c).arrAt 9 cfg0.N
      = edgeOut (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) := by
  rw [Cert.KernelIdeal.Region.edge_region (V1 m ρ) c, V1_arg1 m ρ c, V1_v6 m ρ c, V1_v13 m ρ c, V1_v15 m ρ c, V1_v17 m ρ c,
    V1_v19 m ρ c, V1_v21 m ρ c, V1_v20 m ρ c, V1_v22 m ρ c]
  rfl

/-! ## What region 1's windows find -/

/-- Between the regions the new edge array's buffer holds region 0's output. -/
theorem W2_main_v23 (c : Dev nD) : W2 m ρ c (Proc.devRef .tc main_v23) = (dat0 (V1 m ρ) c).arrAt 9 cfg0.N :=
  W2_arr m ρ c 9

set_option maxHeartbeats 1000000 in
theorem W2_arg0 (c : Dev nD) : W2 m ρ c (Proc.devRef .tc main_arg0) = m ((c : Thread nD τ).loc main_arg0) :=
  (W2_of_ne m ρ c main_arg0 (by decide)).trans (by
    show StableHlo.after hostOps0 (W0 m ρ c) (Proc.devRef .tc main_arg0) = _
    after_results_simp <;> rfl)

set_option maxHeartbeats 1000000 in
theorem W2_arg3 (c : Dev nD) : W2 m ρ c (Proc.devRef .tc main_arg3) = m ((c : Thread nD τ).loc main_arg3) :=
  (W2_of_ne m ρ c main_arg3 (by decide)).trans (by
    show StableHlo.after hostOps0 (W0 m ρ c) (Proc.devRef .tc main_arg3) = _
    after_results_simp <;> rfl)

set_option maxHeartbeats 1000000 in
theorem W2_arg8 (c : Dev nD) : W2 m ρ c (Proc.devRef .tc main_arg8) = m ((c : Thread nD τ).loc main_arg8) :=
  (W2_of_ne m ρ c main_arg8 (by decide)).trans (by
    show StableHlo.after hostOps0 (W0 m ρ c) (Proc.devRef .tc main_arg8) = _
    after_results_simp <;> rfl)

set_option maxHeartbeats 1000000 in
theorem W2_arg9 (c : Dev nD) : W2 m ρ c (Proc.devRef .tc main_arg9) = m ((c : Thread nD τ).loc main_arg9) :=
  (W2_of_ne m ρ c main_arg9 (by decide)).trans (by
    show StableHlo.after hostOps0 (W0 m ρ c) (Proc.devRef .tc main_arg9) = _
    after_results_simp <;> rfl)

set_option maxHeartbeats 1000000 in
theorem W2_arg10 (c : Dev nD) : W2 m ρ c (Proc.devRef .tc main_arg10) = m ((c : Thread nD τ).loc main_arg10) :=
  (W2_of_ne m ρ c main_arg10 (by decide)).trans (by
    show StableHlo.after hostOps0 (W0 m ρ c) (Proc.devRef .tc main_arg10) = _
    after_results_simp <;> rfl)

set_option maxHeartbeats 1000000 in
theorem W2_arg11 (c : Dev nD) : W2 m ρ c (Proc.devRef .tc main_arg11) = m ((c : Thread nD τ).loc main_arg11) :=
  (W2_of_ne m ρ c main_arg11 (by decide)).trans (by
    show StableHlo.after hostOps0 (W0 m ρ c) (Proc.devRef .tc main_arg11) = _
    after_results_simp <;> rfl)

set_option maxHeartbeats 1000000 in
theorem V3_arg0 (c : Dev nD) : V3 m ρ c main_arg0 = m ((c : Thread nD τ).loc main_arg0) := by
  show StableHlo.after hostOps1 (W2 m ρ c) (Proc.devRef .tc main_arg0) = _
  after_results_simp
  exact W2_arg0 m ρ c

set_option maxHeartbeats 1000000 in
theorem V3_v26 (c : Dev nD) :
    V3 m ρ c main_v26 = aggregated (m ((c : Thread nD τ).loc main_arg3)) ((dat0 (V1 m ρ) c).arrAt 9 cfg0.N) := by
  show StableHlo.after hostOps1 (W2 m ρ c) (Proc.devRef .tc main_v26) = _
  after_results_simp
  rw [W2_arg3 m ρ c, W2_main_v23 m ρ c]
  rfl

set_option maxHeartbeats 1000000 in
theorem V3_v28 (c : Dev nD) : V3 m ρ c main_v28 = Cert.Mlp.rowsFrom 0 (by norm_num) (m ((c : Thread nD τ).loc main_arg8)) := by
  show StableHlo.after hostOps1 (W2 m ρ c) (Proc.devRef .tc main_v28) = _
  after_results_simp
  rw [W2_arg8 m ρ c]
  exact slice_rows 0 (by norm_num) (m ((c : Thread nD τ).loc main_arg8)) slices_S256x128_S128x128_0_0

set_option maxHeartbeats 1000000 in
theorem V3_v30 (c : Dev nD) : V3 m ρ c main_v30 = Cert.Mlp.rowsFrom 128 (by norm_num) (m ((c : Thread nD τ).loc main_arg8)) := by
  show StableHlo.after hostOps1 (W2 m ρ c) (Proc.devRef .tc main_v30) = _
  after_results_simp
  rw [W2_arg8 m ρ c]
  exact slice_rows 128 (by norm_num) (m ((c : Thread nD τ).loc main_arg8)) slices_S256x128_S128x128_128_0

set_option maxHeartbeats 1000000 in
theorem V3_v32 (c : Dev nD) : V3 m ρ c main_v32 = Cert.Mlp.asRow (m ((c : Thread nD τ).loc main_arg9)) := by
  show StableHlo.after hostOps1 (W2 m ρ c) (Proc.devRef .tc main_v32) = _
  after_results_simp
  rw [W2_arg9 m ρ c]
  exact reshape_row (m ((c : Thread nD τ).loc main_arg9)) shapeCasts_S128_S1x128

set_option maxHeartbeats 1000000 in
theorem V3_v31 (c : Dev nD) : V3 m ρ c main_v31 = m ((c : Thread nD τ).loc main_arg10) := by
  show StableHlo.after hostOps1 (W2 m ρ c) (Proc.devRef .tc main_v31) = _
  after_results_simp
  rw [W2_arg10 m ρ c]
  rfl

set_option maxHeartbeats 1000000 in
theorem V3_v33 (c : Dev nD) : V3 m ρ c main_v33 = Cert.Mlp.asRow (m ((c : Thread nD τ).loc main_arg11)) := by
  show StableHlo.after hostOps1 (W2 m ρ c) (Proc.devRef .tc main_v33) = _
  after_results_simp
  rw [W2_arg11 m ρ c]
  exact reshape_row (m ((c : Thread nD τ).loc main_arg11)) shapeCasts_S128_S1x128

/-- THE NEW NODE ARRAY after region 1, as a function of the arguments. -/
theorem node_value (c : Dev nD) :
    (dat1 (V3 m ρ) c).arrAt 7 cfg1.N
      = nodeOut (m ((c : Thread nD τ).loc main_arg0)) (m ((c : Thread nD τ).loc main_arg3))
          (edgeOut (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6)) (m ((c : Thread nD τ).loc main_arg7)))
          (m ((c : Thread nD τ).loc main_arg8)) (m ((c : Thread nD τ).loc main_arg9)) (m ((c : Thread nD τ).loc main_arg10))
          (m ((c : Thread nD τ).loc main_arg11)) := by
  rw [Cert.KernelIdeal.Region.node_region (V3 m ρ) c, V3_arg0 m ρ c, V3_v26 m ρ c, V3_v28 m ρ c, V3_v30 m ρ c, V3_v32 m ρ c,
    V3_v31 m ρ c, V3_v33 m ρ c, edge_value m ρ c]
  rfl

/-! ## The run, read -/

/-- Every weakly fair execution of the kernel program terminates without a fault, with the two results at their
    functions of the arguments and the arguments as launched. -/
theorem run : θ_run defs (onTc (τ := τ) (main (F := Ideal))) ⟨m, fun _ => 0, ρ⟩ (fun r => ∀ c : Dev nD,
      r.2.mem ((c.tc : Thread nD τ).loc main_v34)
        = nodeOut (m ((c : Thread nD τ).loc main_arg0)) (m ((c : Thread nD τ).loc main_arg3))
            (edgeOut (m ((c : Thread nD τ).loc main_arg0)) (m ((c : Thread nD τ).loc main_arg1)) (m ((c : Thread nD τ).loc main_arg2))
              (m ((c : Thread nD τ).loc main_arg3)) (m ((c : Thread nD τ).loc main_arg4)) (m ((c : Thread nD τ).loc main_arg5))
              (m ((c : Thread nD τ).loc main_arg6)) (m ((c : Thread nD τ).loc main_arg7)))
            (m ((c : Thread nD τ).loc main_arg8)) (m ((c : Thread nD τ).loc main_arg9)) (m ((c : Thread nD τ).loc main_arg10))
            (m ((c : Thread nD τ).loc main_arg11))
      ∧ r.2.mem ((c.tc : Thread nD τ).loc main_v23)
        = edgeOut (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c).1.trans (node_value m ρ c), (h c).2.1.trans (edge_value m ρ c), (h c).2.2⟩)
    (Cert.KernelIdeal.KRun.run_results m ρ)

end Cert.KernelIdeal.Glue

end
-- ==== Proof.RefValue.lean ====
/-
  The reference's two results, entry by entry: the joined inputs against the whole first weight matrix are the step's
  row function with the matrix's blocks of 128 rows.
-/
import proofs.«127276_j88098369175666_1_alg».proof.Proof.Gen.ReferenceIdeal.Read
import proofs.«127276_j88098369175666_1_alg».proof.Proof.Spec
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx

/-! ## The edge network

The joined array of 384 columns holds the edge array in columns 0–127, the senders' rows in columns 128–255 and the
receivers' rows in columns 256–383: at a column of a stretch it is that piece at the column less the stretch's start. -/

/-- The joined edge input at a column of its first stretch is the edge array there. -/
theorem v14_piece0 (x0 : (⟨S100000x128, .f32⟩ : BufTy).Contents (Elt Ideal)) (x1 : (⟨S500000x128, .f32⟩ : BufTy).Contents (Elt Ideal))
    (x2 x3 : (⟨S500000, .i32⟩ : BufTy).Contents (Elt Ideal)) (i : Fin 500000) (a : Fin 128) :
    val_main_v14 (F := Ideal) x0 x1 x2 x3 (ix2 i ⟨a.val, by have := a.isLt; omega⟩) = x1 (ix2 i a) := by
  unfold val_main_v14
  generalize val_main_v6 (F := Ideal) x0 x2 = g1
  generalize val_main_v13 (F := Ideal) x0 x3 = g2
  refine concatenate_apply_piece (1 : Fin S500000x384.rank) _ _ _ 0 (by simp) S500000x128 x1 rfl rfl 0 rfl (ix2 i a) ?_ ?_
  · intro b hb
    match b with
    | ⟨0, _⟩ => rfl
    | ⟨1, _⟩ => exact absurd rfl hb
  · simp

/-- The joined edge input at a column of its second stretch is the gathered senders' array there. -/
theorem v14_piece1 (x0 : (⟨S100000x128, .f32⟩ : BufTy).Contents (Elt Ideal)) (x1 : (⟨S500000x128, .f32⟩ : BufTy).Contents (Elt Ideal))
    (x2 x3 : (⟨S500000, .i32⟩ : BufTy).Contents (Elt Ideal)) (i : Fin 500000) (a : Fin 128) :
    val_main_v14 (F := Ideal) x0 x1 x2 x3 (ix2 i ⟨128 + a.val, by have := a.isLt; omega⟩)
      = val_main_v6 (F := Ideal) x0 x2 (ix2 i a) := by
  unfold val_main_v14
  generalize val_main_v6 (F := Ideal) x0 x2 = g1
  generalize val_main_v13 (F := Ideal) x0 x3 = g2
  refine concatenate_apply_piece (1 : Fin S500000x384.rank) _ _ _ 1 (by simp) S500000x128 g1 rfl rfl 128 rfl (ix2 i a) ?_ ?_
  · intro b hb
    match b with
    | ⟨0, _⟩ => rfl
    | ⟨1, _⟩ => exact absurd rfl hb
  · rfl

/-- The joined edge input at a column of its third stretch is the gathered receivers' array there. -/
theorem v14_piece2 (x0 : (⟨S100000x128, .f32⟩ : BufTy).Contents (Elt Ideal)) (x1 : (⟨S500000x128, .f32⟩ : BufTy).Contents (Elt Ideal))
    (x2 x3 : (⟨S500000, .i32⟩ : BufTy).Contents (Elt Ideal)) (i : Fin 500000) (a : Fin 128) :
    val_main_v14 (F := Ideal) x0 x1 x2 x3 (ix2 i ⟨256 + a.val, by have := a.isLt; omega⟩)
      = val_main_v13 (F := Ideal) x0 x3 (ix2 i a) := by
  unfold val_main_v14
  generalize val_main_v6 (F := Ideal) x0 x2 = g1
  generalize val_main_v13 (F := Ideal) x0 x3 = g2
  refine concatenate_apply_piece (1 : Fin S500000x384.rank) _ _ _ 2 (by simp) S500000x128 g2 rfl rfl 256 rfl (ix2 i a) ?_ ?_
  · intro b hb
    match b with
    | ⟨0, _⟩ => rfl
    | ⟨1, _⟩ => exact absurd rfl hb
  · rfl

/-- The first product reads its left operand at (row, contracted coordinate). -/
theorem lidx15 (i : Fin 500000) (k : Fin 128) (c : Fin 384) : lidx_main_v15 (ix2 i k) c = ix2 i c := by
  funext a
  match a with
  | ⟨0, _⟩ => rfl
  | ⟨1, _⟩ => rfl

/-- The first product reads its right operand at (contracted coordinate, column). -/
theorem ridx15 (i : Fin 500000) (k : Fin 128) (c : Fin 384) : ridx_main_v15 (ix2 i k) c = ix2 c k := by
  funext a
  match a with
  | ⟨0, _⟩ => rfl
  | ⟨1, _⟩ => rfl

/-- The hidden layer of the edge network at row i, column k: the sum over the 384 joined coordinates is the three
    sums over the 128 coordinates of each piece, each against its block of rows of the first weight matrix. -/
theorem v19_hidden (x0 : (⟨S100000x128, .f32⟩ : BufTy).Contents (Elt Ideal)) (x1 : (⟨S500000x128, .f32⟩ : BufTy).Contents (Elt Ideal))
    (x2 x3 : (⟨S500000, .i32⟩ : BufTy).Contents (Elt Ideal)) (x4 : (⟨S384x128, .f32⟩ : BufTy).Contents (Elt Ideal))
    (x5 : (⟨S128, .f32⟩ : BufTy).Contents (Elt Ideal)) (i : Fin 500000) (k : Fin 128) :
    val_main_v19 (F := Ideal) x0 x1 x2 x3 x4 x5 (ix2 i k)
      = Cert.Mlp.hidden3 (Cert.Mlp.row x1 i) (Cert.Mlp.row (val_main_v6 (F := Ideal) x0 x2) i) (Cert.Mlp.row (val_main_v13 (F := Ideal) x0 x3) i)
          (Cert.Mlp.mat (Cert.Mlp.rowsFrom 0 (by norm_num) x4)) (Cert.Mlp.mat (Cert.Mlp.rowsFrom 128 (by norm_num) x4)) (Cert.Mlp.mat (Cert.Mlp.rowsFrom 256 (by norm_num) x4))
          (Cert.Mlp.bias (Cert.Mlp.asRow x5)) k := by
  rw [val_main_v19_apply, val_main_v18_apply, val_main_v15_apply, val_main_call0_v0_apply, val_main_call0_cst_apply, val_main_v17_apply, val_main_v16_apply]
  rw [Ideal.ofBits_def, Ideal.ofBits_zero_f32, Ideal.maximumf_def, Ideal.addf_def]
  unfold Cert.Mlp.hidden3
  refine congrArg₂ max (congrArg₂ (· + ·) ?_ ?_) rfl
  · rw [Cert.Mlp.sum_384]
    refine congrArg₂ (· + ·) (congrArg₂ (· + ·) ?_ ?_) ?_
    · refine Finset.sum_congr rfl fun a _ => ?_
      rw [lidx15, ridx15, v14_piece0]
      refine congrArg (fun z => x1 (ix2 i a) * x4 z) ?_
      funext d
      match d with
      | ⟨0, _⟩ => exact Fin.ext (Nat.zero_add _).symm
      | ⟨1, _⟩ => rfl
    · refine Finset.sum_congr rfl fun a _ => ?_
      rw [lidx15, ridx15, v14_piece1]
      rfl
    · refine Finset.sum_congr rfl fun a _ => ?_
      rw [lidx15, ridx15, v14_piece2]
      rfl
  · refine congrArg x5 ?_
    funext d
    match d with
    | ⟨0, _⟩ => rfl

/-- The second product reads its left operand at (row, contracted coordinate). -/
theorem lidx20 (i : Fin 500000) (q k : Fin 128) : lidx_main_v20 (ix2 i q) k = ix2 i k := by
  funext a
  match a with
  | ⟨0, _⟩ => rfl
  | ⟨1, _⟩ => rfl

/-- The second product reads its right operand at (contracted coordinate, column). -/
theorem ridx20 (i : Fin 500000) (q k : Fin 128) : ridx_main_v20 (ix2 i q) k = ix2 k q := by
  funext a
  match a with
  | ⟨0, _⟩ => rfl
  | ⟨1, _⟩ => rfl

/-- The reference's new edge array is the edge step of the edge array, the two gathered arrays, the first weight
    matrix's three blocks of rows, and the biases as rows. -/
theorem ref_edge (x0 : (⟨S100000x128, .f32⟩ : BufTy).Contents (Elt Ideal)) (x1 : (⟨S500000x128, .f32⟩ : BufTy).Contents (Elt Ideal))
    (x2 x3 : (⟨S500000, .i32⟩ : BufTy).Contents (Elt Ideal)) (x4 : (⟨S384x128, .f32⟩ : BufTy).Contents (Elt Ideal))
    (x5 : (⟨S128, .f32⟩ : BufTy).Contents (Elt Ideal)) (x6 : (⟨S128x128, .f32⟩ : BufTy).Contents (Elt Ideal))
    (x7 : (⟨S128, .f32⟩ : BufTy).Contents (Elt Ideal)) :
    val_main_v24 (F := Ideal) x0 x1 x2 x3 x4 x5 x6 x7
      = Cert.Mlp.edgeStep x1 (val_main_v6 (F := Ideal) x0 x2) (val_main_v13 (F := Ideal) x0 x3)
          (Cert.Mlp.rowsFrom 0 (by norm_num) x4) (Cert.Mlp.rowsFrom 128 (by norm_num) x4) (Cert.Mlp.rowsFrom 256 (by norm_num) x4)
          (Cert.Mlp.asRow x5) x6 (Cert.Mlp.asRow x7) := by
  funext j
  obtain ⟨i, q, rfl⟩ : ∃ (i : Fin 500000) (q : Fin 128), j = ix2 i q := ⟨j 0, j 1, eq_ix2 j⟩
  rw [Cert.Mlp.edgeStep_apply, val_main_v24_apply, val_main_v23_apply, val_main_v20_apply, val_main_v22_apply, val_main_v21_apply]
  rw [Ideal.addf_def, Ideal.addf_def]
  unfold Cert.Mlp.residual
  refine congrArg₂ (· + ·) rfl (congrArg₂ (· + ·) ?_ ?_)
  · unfold Cert.Mlp.rowDot
    refine Finset.sum_congr rfl fun k _ => ?_
    rw [lidx20, ridx20, v19_hidden]
    rfl
  · refine congrArg x7 ?_
    funext d
    match d with
    | ⟨0, _⟩ => rfl

/-! ## The node network

The joined array of 256 columns holds the node array in columns 0–127 and the aggregated messages in columns 128–255. -/

/-- The joined node array at a coordinate of its first stretch is the node array there. -/
theorem v28_piece0 (x0 : (⟨S100000x128, .f32⟩ : BufTy).Contents (Elt Ideal)) (x1 : (⟨S500000x128, .f32⟩ : BufTy).Contents (Elt Ideal))
    (x2 x3 : (⟨S500000, .i32⟩ : BufTy).Contents (Elt Ideal)) (x4 : (⟨S384x128, .f32⟩ : BufTy).Contents (Elt Ideal))
    (x5 : (⟨S128, .f32⟩ : BufTy).Contents (Elt Ideal)) (x6 : (⟨S128x128, .f32⟩ : BufTy).Contents (Elt Ideal))
    (x7 : (⟨S128, .f32⟩ : BufTy).Contents (Elt Ideal)) (i : Fin 100000) (a : Fin 128) :
    val_main_v28 (F := Ideal) x0 x1 x2 x3 x4 x5 x6 x7 (ix2 i ⟨a.val, by have := a.isLt; omega⟩) = x0 (ix2 i a) := by
  unfold val_main_v28
  generalize val_main_v27 (F := Ideal) x0 x1 x2 x3 x4 x5 x6 x7 = g1
  refine concatenate_apply_piece (1 : Fin S100000x256.rank) _ _ _ 0 (by simp) S100000x128 x0 rfl rfl 0 rfl (ix2 i a) ?_ ?_
  · intro b hb
    match b with
    | ⟨0, _⟩ => rfl
    | ⟨1, _⟩ => exact absurd rfl hb
  · simp

/-- The joined node array at a coordinate of its second stretch is the aggregated messages there. -/
theorem v28_piece1 (x0 : (⟨S100000x128, .f32⟩ : BufTy).Contents (Elt Ideal)) (x1 : (⟨S500000x128, .f32⟩ : BufTy).Contents (Elt Ideal))
    (x2 x3 : (⟨S500000, .i32⟩ : BufTy).Contents (Elt Ideal)) (x4 : (⟨S384x128, .f32⟩ : BufTy).Contents (Elt Ideal))
    (x5 : (⟨S128, .f32⟩ : BufTy).Contents (Elt Ideal)) (x6 : (⟨S128x128, .f32⟩ : BufTy).Contents (Elt Ideal))
    (x7 : (⟨S128, .f32⟩ : BufTy).Contents (Elt Ideal)) (i : Fin 100000) (a : Fin 128) :
    val_main_v28 (F := Ideal) x0 x1 x2 x3 x4 x5 x6 x7 (ix2 i ⟨128 + a.val, by have := a.isLt; omega⟩)
      = val_main_v27 (F := Ideal) x0 x1 x2 x3 x4 x5 x6 x7 (ix2 i a) := by
  unfold val_main_v28
  generalize val_main_v27 (F := Ideal) x0 x1 x2 x3 x4 x5 x6 x7 = g1
  refine concatenate_apply_piece (1 : Fin S100000x256.rank) _ _ _ 1 (by simp) S100000x128 g1 rfl rfl 128 rfl (ix2 i a) ?_ ?_
  · intro b hb
    match b with
    | ⟨0, _⟩ => rfl
    | ⟨1, _⟩ => exact absurd rfl hb
  · rfl

/-- The first product reads its left operand at (row, contracted coordinate). -/
theorem lidx29 (i : Fin 100000) (k : Fin 128) (c : Fin 256) : lidx_main_v29 (ix2 i k) c = ix2 i c := by
  funext a
  match a with
  | ⟨0, _⟩ => rfl
  | ⟨1, _⟩ => rfl

/-- The first product reads its right operand at (contracted coordinate, column). -/
theorem ridx29 (i : Fin 100000) (k : Fin 128) (c : Fin 256) : ridx_main_v29 (ix2 i k) c = ix2 c k := by
  funext a
  match a with
  | ⟨0, _⟩ => rfl
  | ⟨1, _⟩ => rfl

/-- The second product reads its left operand at (row, contracted coordinate). -/
theorem lidx34 (i : Fin 100000) (q k : Fin 128) : lidx_main_v34 (ix2 i q) k = ix2 i k := by
  funext a
  match a with
  | ⟨0, _⟩ => rfl
  | ⟨1, _⟩ => rfl

/-- The second product reads its right operand at (contracted coordinate, column). -/
theorem ridx34 (i : Fin 100000) (q k : Fin 128) : ridx_main_v34 (ix2 i q) k = ix2 k q := by
  funext a
  match a with
  | ⟨0, _⟩ => rfl
  | ⟨1, _⟩ => rfl

/-- The hidden layer of the node network at row i, column k: the sum over the 256 joined coordinates is the two sums
    over the 128 coordinates of each piece, each against its block of rows of the first weight matrix. -/
theorem v33_hidden (x0 : (⟨S100000x128, .f32⟩ : BufTy).Contents (Elt Ideal)) (x1 : (⟨S500000x128, .f32⟩ : BufTy).Contents (Elt Ideal))
    (x2 x3 : (⟨S500000, .i32⟩ : BufTy).Contents (Elt Ideal)) (x4 : (⟨S384x128, .f32⟩ : BufTy).Contents (Elt Ideal))
    (x5 : (⟨S128, .f32⟩ : BufTy).Contents (Elt Ideal)) (x6 : (⟨S128x128, .f32⟩ : BufTy).Contents (Elt Ideal))
    (x7 : (⟨S128, .f32⟩ : BufTy).Contents (Elt Ideal)) (x8 : (⟨S256x128, .f32⟩ : BufTy).Contents (Elt Ideal))
    (x9 : (⟨S128, .f32⟩ : BufTy).Contents (Elt Ideal)) (i : Fin 100000) (k : Fin 128) :
    val_main_v33 (F := Ideal) x0 x1 x2 x3 x4 x5 x6 x7 x8 x9 (ix2 i k)
      = Cert.Mlp.hidden2 (Cert.Mlp.row x0 i) (Cert.Mlp.row (val_main_v27 (F := Ideal) x0 x1 x2 x3 x4 x5 x6 x7) i)
          (Cert.Mlp.mat (Cert.Mlp.rowsFrom 0 (by norm_num) x8)) (Cert.Mlp.mat (Cert.Mlp.rowsFrom 128 (by norm_num) x8))
          (Cert.Mlp.bias (Cert.Mlp.asRow x9)) k := by
  rw [val_main_v33_apply, val_main_v32_apply, val_main_v29_apply, val_main_call1_v0_apply, val_main_call1_cst_apply, val_main_v31_apply, val_main_v30_apply]
  rw [Ideal.ofBits_def, Ideal.ofBits_zero_f32, Ideal.maximumf_def, Ideal.addf_def]
  unfold Cert.Mlp.hidden2
  refine congrArg₂ max (congrArg₂ (· + ·) ?_ ?_) rfl
  · rw [Cert.Mlp.sum_256]
    refine congrArg₂ (· + ·) ?_ ?_
    · refine Finset.sum_congr rfl fun a _ => ?_
      rw [lidx29, ridx29, v28_piece0]
      refine congrArg (fun z => x0 (ix2 i a) * x8 z) ?_
      funext d
      match d with
      | ⟨0, _⟩ => exact Fin.ext (Nat.zero_add _).symm
      | ⟨1, _⟩ => rfl
    · refine Finset.sum_congr rfl fun a _ => ?_
      rw [lidx29, ridx29, v28_piece1]
      rfl
  · refine congrArg x9 ?_
    funext d
    match d with
    | ⟨0, _⟩ => rfl

/-- The reference's new node array is the node step of the node array, the aggregated messages, the first weight
    matrix's two blocks of rows, and the biases as rows. -/
theorem ref_node (x0 : (⟨S100000x128, .f32⟩ : BufTy).Contents (Elt Ideal)) (x1 : (⟨S500000x128, .f32⟩ : BufTy).Contents (Elt Ideal))
    (x2 x3 : (⟨S500000, .i32⟩ : BufTy).Contents (Elt Ideal)) (x4 : (⟨S384x128, .f32⟩ : BufTy).Contents (Elt Ideal))
    (x5 : (⟨S128, .f32⟩ : BufTy).Contents (Elt Ideal)) (x6 : (⟨S128x128, .f32⟩ : BufTy).Contents (Elt Ideal))
    (x7 : (⟨S128, .f32⟩ : BufTy).Contents (Elt Ideal)) (x8 : (⟨S256x128, .f32⟩ : BufTy).Contents (Elt Ideal))
    (x9 : (⟨S128, .f32⟩ : BufTy).Contents (Elt Ideal)) (x10 : (⟨S128x128, .f32⟩ : BufTy).Contents (Elt Ideal))
    (x11 : (⟨S128, .f32⟩ : BufTy).Contents (Elt Ideal)) :
    val_main_v38 (F := Ideal) x0 x1 x2 x3 x4 x5 x6 x7 x8 x9 x10 x11
      = Cert.Mlp.nodeStep x0 (val_main_v27 (F := Ideal) x0 x1 x2 x3 x4 x5 x6 x7)
          (Cert.Mlp.rowsFrom 0 (by norm_num) x8) (Cert.Mlp.rowsFrom 128 (by norm_num) x8)
          (Cert.Mlp.asRow x9) x10 (Cert.Mlp.asRow x11) := by
  funext j
  obtain ⟨i, q, rfl⟩ : ∃ (i : Fin 100000) (q : Fin 128), j = ix2 i q := ⟨j 0, j 1, eq_ix2 j⟩
  rw [Cert.Mlp.nodeStep_apply, val_main_v38_apply, val_main_v37_apply, val_main_v34_apply, val_main_v36_apply, val_main_v35_apply]
  rw [Ideal.addf_def, Ideal.addf_def]
  unfold Cert.Mlp.residual
  refine congrArg₂ (· + ·) rfl (congrArg₂ (· + ·) ?_ ?_)
  · unfold Cert.Mlp.rowDot
    refine Finset.sum_congr rfl fun k _ => ?_
    rw [lidx34, ridx34, v33_hidden]
    rfl
  · refine congrArg x11 ?_
    funext d
    match d with
    | ⟨0, _⟩ => rfl

end Cert.ReferenceIdeal.RefValue

end
-- ==== Proof.Join.lean ====
/-
  The reference's two results are the kernel's two functions of the arguments.

  Both programs gather the senders' and receivers' rows and aggregate the new edges with the same host operations
  on the same arguments, so those stay as they are; what differs is only how the first layer's product is arranged,
  and that is the specification's sum over the joined coordinate split into its stretches of 128.
-/
import proofs.«127276_j88098369175666_1_alg».proof.Proof.RefValue
import proofs.«127276_j88098369175666_1_alg».proof.Proof.Glue

noncomputable section

namespace Cert.Proof.Join

open Cert.ReferenceIdeal Cert.ReferenceIdeal.Gen Cert.ReferenceIdeal.Read Idealize.ShloMosaic

/-- The reference gathers the senders' rows as the kernel's host side does. -/
theorem gather_senders (x0 : (⟨S100000x128, .f32⟩ : BufTy).Contents (Elt Ideal)) (x2 : (⟨S500000, .i32⟩ : BufTy).Contents (Elt Ideal)) :
    val_main_v6 (F := Ideal) x0 x2 = Cert.KernelIdeal.Glue.gathered x0 x2 := rfl

/-- The reference gathers the receivers' rows as the kernel's host side does. -/
theorem gather_receivers (x0 : (⟨S100000x128, .f32⟩ : BufTy).Contents (Elt Ideal)) (x3 : (⟨S500000, .i32⟩ : BufTy).Contents (Elt Ideal)) :
    val_main_v13 (F := Ideal) x0 x3 = Cert.KernelIdeal.Glue.gathered x0 x3 := rfl

/-- The reference's new edge array is the kernel's. -/
theorem edge_eq (x0 : (⟨S100000x128, .f32⟩ : BufTy).Contents (Elt Ideal)) (x1 : (⟨S500000x128, .f32⟩ : BufTy).Contents (Elt Ideal))
    (x2 x3 : (⟨S500000, .i32⟩ : BufTy).Contents (Elt Ideal)) (x4 : (⟨S384x128, .f32⟩ : BufTy).Contents (Elt Ideal))
    (x5 : (⟨S128, .f32⟩ : BufTy).Contents (Elt Ideal)) (x6 : (⟨S128x128, .f32⟩ : BufTy).Contents (Elt Ideal))
    (x7 : (⟨S128, .f32⟩ : BufTy).Contents (Elt Ideal)) :
    val_main_v24 (F := Ideal) x0 x1 x2 x3 x4 x5 x6 x7 = Cert.KernelIdeal.Glue.edgeOut x0 x1 x2 x3 x4 x5 x6 x7 := by
  rw [Cert.ReferenceIdeal.RefValue.ref_edge, gather_senders, gather_receivers]
  rfl

/-- The reference aggregates the new edges at their receivers as the kernel's host side does. -/
theorem aggregate_eq (x0 : (⟨S100000x128, .f32⟩ : BufTy).Contents (Elt Ideal)) (x1 : (⟨S500000x128, .f32⟩ : BufTy).Contents (Elt Ideal))
    (x2 x3 : (⟨S500000, .i32⟩ : BufTy).Contents (Elt Ideal)) (x4 : (⟨S384x128, .f32⟩ : BufTy).Contents (Elt Ideal))
    (x5 : (⟨S128, .f32⟩ : BufTy).Contents (Elt Ideal)) (x6 : (⟨S128x128, .f32⟩ : BufTy).Contents (Elt Ideal))
    (x7 : (⟨S128, .f32⟩ : BufTy).Contents (Elt Ideal)) :
    val_main_v27 (F := Ideal) x0 x1 x2 x3 x4 x5 x6 x7
      = Cert.KernelIdeal.Glue.aggregated x3 (val_main_v24 (F := Ideal) x0 x1 x2 x3 x4 x5 x6 x7) := rfl

/-- The reference's new node array is the kernel's. -/
theorem node_eq (x0 : (⟨S100000x128, .f32⟩ : BufTy).Contents (Elt Ideal)) (x1 : (⟨S500000x128, .f32⟩ : BufTy).Contents (Elt Ideal))
    (x2 x3 : (⟨S500000, .i32⟩ : BufTy).Contents (Elt Ideal)) (x4 : (⟨S384x128, .f32⟩ : BufTy).Contents (Elt Ideal))
    (x5 : (⟨S128, .f32⟩ : BufTy).Contents (Elt Ideal)) (x6 : (⟨S128x128, .f32⟩ : BufTy).Contents (Elt Ideal))
    (x7 : (⟨S128, .f32⟩ : BufTy).Contents (Elt Ideal)) (x8 : (⟨S256x128, .f32⟩ : BufTy).Contents (Elt Ideal))
    (x9 : (⟨S128, .f32⟩ : BufTy).Contents (Elt Ideal)) (x10 : (⟨S128x128, .f32⟩ : BufTy).Contents (Elt Ideal))
    (x11 : (⟨S128, .f32⟩ : BufTy).Contents (Elt Ideal)) :
    val_main_v38 (F := Ideal) x0 x1 x2 x3 x4 x5 x6 x7 x8 x9 x10 x11
      = Cert.KernelIdeal.Glue.nodeOut x0 x3 (Cert.KernelIdeal.Glue.edgeOut x0 x1 x2 x3 x4 x5 x6 x7) x8 x9 x10 x11 := by
  rw [Cert.ReferenceIdeal.RefValue.ref_node, aggregate_eq, edge_eq]
  rfl

end Cert.Proof.Join

end
-- ==== Proof.lean ====
/-
  A graph-network step — every edge row updated by a two-layer perceptron of itself, its sender's row and its
  receiver's row, the new edge rows summed at their receivers, every node row updated by a two-layer perceptron of
  itself and its sum — computed by two row-tiled kernels among host operations, against the same step written with
  the inputs joined along the contracted axis.

  On the extended reals both programs compute the same function of the arguments. The gathers and the aggregation
  are the same host operations on both sides. A kernel's first layer adds the products of each input's row with its
  own block of 128 rows of the first weight matrix; the reference multiplies the joined row by the whole matrix; a
  sum over the joined coordinate is the sum of its stretches, by commutativity and associativity of addition alone,
  so no input needs to be finite. A narrowing of the number format is the identity. The kernels' blocks are rows
  5000·t … 5000·t + 5000 of their arrays and tile them, and the step treats rows independently, so each region's
  output array is the step of the arrays the region finds.
-/
import proofs.«127276_j88098369175666_1_alg».proof.Defs
import proofs.«127276_j88098369175666_1_alg».proof.Proof.Gen.Kernel
import proofs.«127276_j88098369175666_1_alg».proof.Proof.Gen.Kernel.Skeleton
import proofs.«127276_j88098369175666_1_alg».proof.Proof.Gen.Kernel.Launch
import proofs.«127276_j88098369175666_1_alg».proof.Proof.Gen.Kernel.Points
import proofs.«127276_j88098369175666_1_alg».proof.Proof.Gen.Kernel.Frame
import proofs.«127276_j88098369175666_1_alg».proof.Proof.Gen.KernelIdeal
import proofs.«127276_j88098369175666_1_alg».proof.Proof.Gen.KernelIdeal.Skeleton
import proofs.«127276_j88098369175666_1_alg».proof.Proof.Gen.KernelIdeal.Launch
import proofs.«127276_j88098369175666_1_alg».proof.Proof.Gen.KernelIdeal.Points
import proofs.«127276_j88098369175666_1_alg».proof.Proof.Gen.KernelIdeal.Frame
import proofs.«127276_j88098369175666_1_alg».proof.Proof.Gen.ReferenceIdeal
import proofs.«127276_j88098369175666_1_alg».proof.Proof.Gen.Pre_finite_inputs
import proofs.«127276_j88098369175666_1_alg».proof.Proof.Gen.ReferenceIdeal.Run
import proofs.«127276_j88098369175666_1_alg».proof.Proof.Gen.ReferenceIdeal.Read
import proofs.«127276_j88098369175666_1_alg».proof.Proof.Glue
import proofs.«127276_j88098369175666_1_alg».proof.Proof.Join
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_k : Cert.frame_Kernel := fun m ρ _ => Cert.Kernel.Gen.frame m ρ

/-- So does the kernel program read on the extended reals. -/
theorem frame_ki : Cert.frame_KernelIdeal := fun m ρ _ => Cert.KernelIdeal.Gen.frame m ρ

/-- The reference is host operations only: its run, with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- Both programs end with the new node array and the new edge array at the same functions of the arguments. -/
theorem algebraic : Cert.algebraic_KernelIdeal_ReferenceIdeal := by
  intro m ρ m' ρ' _ hagree
  refine ⟨_, _, Cert.KernelIdeal.Glue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8, a9, a10, a11⟩ := hagree c
    rw [a0, a1, a2, a3, a4, a5, a6, a7, a8, a9, a10, a11]
    exact (Cert.ReferenceIdeal.Read.val_main_v38_eq (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).trans
      (Cert.Proof.Join.node_eq _ _ _ _ _ _ _ _ _ _ _ _)
  · obtain ⟨a0, a1, a2, a3, a4, a5, a6, a7, a8, a9, a10, a11⟩ := hagree c
    rw [a0, a1, a2, a3, a4, a5, a6, a7]
    exact (Cert.ReferenceIdeal.Read.val_main_v24_eq (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).trans
      (Cert.Proof.Join.edge_eq _ _ _ _ _ _ _ _)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
